-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x300000 : Shape := ⟨2, ![2, 300000]⟩
abbrev S2x100000 : Shape := ⟨2, ![2, 100000]⟩
abbrev S100000x256 : Shape := ⟨2, ![100000, 256]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S256x256 .f32) (main_arg16 : FVec F S256 .f32) (main_arg17 : FVec F S256x256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x256 .f32 := Host.absf main_arg15
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg17
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_v63 main_v67

def fn_part2 {F : FTy → Type} [FloatOps F] (main_arg11 : FVec F S256x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_v33 : IVec S_ 1) : IVec S_ 1 :=
  let main_v34 : FVec F S256x256 .f32 := Host.absf main_arg11
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg12
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg14
  let main_cst_18 : FVec F S_ .f32 := constant S_ .f32 0x7F800000#32
  let main_v50 : FVec F S256x256 .f32 := broadcastInDim S256x256 ![] bcast_S_S256x256 main_cst_18
  fn_part3 (F := F) main_arg15 main_arg16 main_arg17 main_v48 main_v49 main_v50

def fn_part1 {F : FTy → Type} [FloatOps F] (main_arg8 : FVec F S256x256 .f32) (main_arg9 : FVec F S256x256 .f32) (main_arg10 : FVec F S256 .f32) (main_arg11 : FVec F S256x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg9
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : IVec S100000 32) (main_arg1 : IVec S100000 32) (main_arg2 : IVec S2x300000 32) (main_arg3 : IVec S2x100000 32) (main_arg4 : FVec F S100000x256 .f32) (main_arg5 : FVec F S100000x256 .f32) (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) : IVec S_ 1 :=
  let main_v0 : FVec F S100000x256 .f32 := Host.absf main_arg4
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg5
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S256x256 .f32 := Host.absf main_arg6
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_arg11 main_arg12 main_arg13 main_arg14 main_arg15 main_arg16 main_arg17 main_v13 main_v16
-- ==== Kernel.lean ====
abbrev S100000 : Shape := ⟨1, ![100000]⟩
abbrev S2x300000 : Shape := ⟨2, ![2, 300000]⟩
abbrev S2x100000 : Shape := ⟨2, ![2, 100000]⟩
abbrev S100000x256 : Shape := ⟨2, ![100000, 256]⟩
abbrev S256x256 : Shape := ⟨2, ![256, 256]⟩
abbrev S256 : Shape := ⟨1, ![256]⟩
abbrev S1x300000 : Shape := ⟨2, ![1, 300000]⟩
abbrev S300000 : Shape := ⟨1, ![300000]⟩
abbrev S_ : Shape := ⟨0, ![]⟩
abbrev S100000x1 : Shape := ⟨2, ![100000, 1]⟩
abbrev S300000x1 : Shape := ⟨2, ![300000, 1]⟩
abbrev S300000x256 : Shape := ⟨2, ![300000, 256]⟩
abbrev S1x256 : Shape := ⟨2, ![1, 256]⟩
abbrev S2000x256 : Shape := ⟨2, ![2000, 256]⟩
abbrev S1x100000 : Shape := ⟨2, ![1, 100000]⟩
abbrev S2000x1 : Shape := ⟨2, ![2000, 1]⟩
abbrev S2000 : Shape := ⟨1, ![2000]⟩

abbrev nBuf : Space → Nat
  | .hbm => 191
  | .vmem => 42
  | .smem => 0
  | _ => 0

abbrev hbmTy0_0 (i : Nat) : BufTy := match i % 128 with
  | 0 => ⟨S100000, .i32⟩
  | 1 => ⟨S100000, .i32⟩
  | 2 => ⟨S2x300000, .i32⟩
  | 3 => ⟨S2x100000, .i32⟩
  | 4 => ⟨S100000x256, .f32⟩
  | 5 => ⟨S100000x256, .f32⟩
  | 6 => ⟨S256x256, .f32⟩
  | 7 => ⟨S256, .f32⟩
  | 8 => ⟨S256x256, .f32⟩
  | 9 => ⟨S256x256, .f32⟩
  | 10 => ⟨S256, .f32⟩
  | 11 => ⟨S256x256, .f32⟩
  | 12 => ⟨S256x256, .f32⟩
  | 13 => ⟨S256, .f32⟩
  | 14 => ⟨S256x256, .f32⟩
  | 15 => ⟨S256x256, .f32⟩
  | 16 => ⟨S256, .f32⟩
  | 17 => ⟨S256x256, .f32⟩
  | 18 => ⟨S1x300000, .i32⟩
  | 19 => ⟨S300000, .i32⟩
  | 20 => ⟨S1x300000, .i32⟩
  | 21 => ⟨S300000, .i32⟩
  | 22 => ⟨S1x300000, .i32⟩
  | 23 => ⟨S1x300000, .i32⟩
  | 24 => ⟨S2x300000, .i32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S100000x256, .f32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x256, .f32⟩
  | 43 => ⟨S_, .f32⟩
  | 44 => ⟨S300000, .f32⟩
  | 45 => ⟨S1x300000, .i32⟩
  | 46 => ⟨S300000, .i32⟩
  | 47 => ⟨S_, .f32⟩
  | 48 => ⟨S100000, .f32⟩
  | 49 => ⟨S300000x1, .i32⟩
  | 50 => ⟨S100000, .f32⟩
  | 51 => ⟨S_, .f32⟩
  | 52 => ⟨S300000, .f32⟩
  | 53 => ⟨S1x300000, .i32⟩
  | 54 => ⟨S300000, .i32⟩
  | 55 => ⟨S_, .f32⟩
  | 56 => ⟨S100000, .f32⟩
  | 57 => ⟨S300000x1, .i32⟩
  | 58 => ⟨S100000, .f32⟩
  | 59 => ⟨S1x300000, .i32⟩
  | 60 => ⟨S300000, .i32⟩
  | 61 => ⟨S1x300000, .i32⟩
  | 62 => ⟨S300000, .i32⟩
  | 63 => ⟨S_, .i32⟩
  | 64 => ⟨S300000, .i32⟩
  | 65 => ⟨S300000, .i1⟩
  | 66 => ⟨S_, .i32⟩
  | 67 => ⟨S300000, .i32⟩
  | 68 => ⟨S300000, .i32⟩
  | 69 => ⟨S300000, .i32⟩
  | 70 => ⟨S300000x1, .i32⟩
  | 71 => ⟨S300000x256, .f32⟩
  | 72 => ⟨S_, .f32⟩
  | 73 => ⟨S100000x256, .f32⟩
  | 74 => ⟨S300000x1, .i32⟩
  | 75 => ⟨S100000x256, .f32⟩
  | 76 => ⟨S_, .f32⟩
  | 77 => ⟨S100000, .f32⟩
  | 78 => ⟨S100000, .f32⟩
  | 79 => ⟨S100000x1, .f32⟩
  | 80 => ⟨S100000x256, .f32⟩
  | 81 => ⟨S100000x256, .f32⟩
  | 82 => ⟨S1x300000, .i32⟩
  | 83 => ⟨S300000, .i32⟩
  | 84 => ⟨S1x300000, .i32⟩
  | 85 => ⟨S300000, .i32⟩
  | 86 => ⟨S_, .i32⟩
  | 87 => ⟨S300000, .i32⟩
  | 88 => ⟨S300000, .i1⟩
  | 89 => ⟨S_, .i32⟩
  | 90 => ⟨S300000, .i32⟩
  | 91 => ⟨S300000, .i32⟩
  | 92 => ⟨S300000, .i32⟩
  | 93 => ⟨S300000x1, .i32⟩
  | 94 => ⟨S300000x256, .f32⟩
  | 95 => ⟨S_, .f32⟩
  | 96 => ⟨S100000x256, .f32⟩
  | 97 => ⟨S300000x1, .i32⟩
  | 98 => ⟨S100000x256, .f32⟩
  | 99 => ⟨S_, .f32⟩
  | 100 => ⟨S100000, .f32⟩
  | 101 => ⟨S100000, .f32⟩
  | 102 => ⟨S100000x1, .f32⟩
  | 103 => ⟨S100000x256, .f32⟩
  | 104 => ⟨S100000x256, .f32⟩
  | 105 => ⟨S256x256, .f32⟩
  | 106 => ⟨S256x256, .f32⟩
  | 107 => ⟨S1x256, .f32⟩
  | 108 => ⟨S100000x256, .f32⟩
  | 109 => ⟨S256x256, .f32⟩
  | 110 => ⟨S256x256, .f32⟩
  | 111 => ⟨S1x256, .f32⟩
  | 112 => ⟨S100000x256, .f32⟩
  | 113 => ⟨S1x300000, .i32⟩
  | 114 => ⟨S300000, .i32⟩
  | 115 => ⟨S1x300000, .i32⟩
  | 116 => ⟨S300000, .i32⟩
  | 117 => ⟨S_, .i32⟩
  | 118 => ⟨S300000, .i32⟩
  | 119 => ⟨S300000, .i1⟩
  | 120 => ⟨S_, .i32⟩
  | 121 => ⟨S300000, .i32⟩
  | 122 => ⟨S300000, .i32⟩
  | 123 => ⟨S300000, .i32⟩
  | 124 => ⟨S300000x1, .i32⟩
  | 125 => ⟨S300000x256, .f32⟩
  | 126 => ⟨S_, .f32⟩
  | 127 => ⟨S100000x256, .f32⟩
  | _ => ⟨S100000, .i32⟩

abbrev hbmTy0_1 (i : Nat) : BufTy := match i % 128 with
  | 0 => ⟨S300000x1, .i32⟩
  | 1 => ⟨S100000x256, .f32⟩
  | 2 => ⟨S_, .f32⟩
  | 3 => ⟨S100000, .f32⟩
  | 4 => ⟨S100000, .f32⟩
  | 5 => ⟨S100000x1, .f32⟩
  | 6 => ⟨S100000x256, .f32⟩
  | 7 => ⟨S100000x256, .f32⟩
  | 8 => ⟨S1x300000, .i32⟩
  | 9 => ⟨S300000, .i32⟩
  | 10 => ⟨S1x300000, .i32⟩
  | 11 => ⟨S300000, .i32⟩
  | 12 => ⟨S_, .i32⟩
  | 13 => ⟨S300000, .i32⟩
  | 14 => ⟨S300000, .i1⟩
  | 15 => ⟨S_, .i32⟩
  | 16 => ⟨S300000, .i32⟩
  | 17 => ⟨S300000, .i32⟩
  | 18 => ⟨S300000, .i32⟩
  | 19 => ⟨S300000x1, .i32⟩
  | 20 => ⟨S300000x256, .f32⟩
  | 21 => ⟨S_, .f32⟩
  | 22 => ⟨S100000x256, .f32⟩
  | 23 => ⟨S300000x1, .i32⟩
  | 24 => ⟨S100000x256, .f32⟩
  | 25 => ⟨S_, .f32⟩
  | 26 => ⟨S100000, .f32⟩
  | 27 => ⟨S100000, .f32⟩
  | 28 => ⟨S100000x1, .f32⟩
  | 29 => ⟨S100000x256, .f32⟩
  | 30 => ⟨S100000x256, .f32⟩
  | 31 => ⟨S256x256, .f32⟩
  | 32 => ⟨S256x256, .f32⟩
  | 33 => ⟨S1x256, .f32⟩
  | 34 => ⟨S100000x256, .f32⟩
  | 35 => ⟨S256x256, .f32⟩
  | 36 => ⟨S256x256, .f32⟩
  | 37 => ⟨S1x256, .f32⟩
  | 38 => ⟨S100000x256, .f32⟩
  | 39 => ⟨S1x100000, .i32⟩
  | 40 => ⟨S100000, .i32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S100000x256, .f32⟩
  | 50 => ⟨S1x100000, .i32⟩
  | 51 => ⟨S100000, .i32⟩
  | 52 => ⟨S_, .i32⟩
  | 53 => ⟨S100000, .i32⟩
  | 54 => ⟨S100000, .i1⟩
  | 55 => ⟨S_, .i32⟩
  | 56 => ⟨S100000, .i32⟩
  | 57 => ⟨S100000, .i32⟩
  | 58 => ⟨S100000, .i32⟩
  | 59 => ⟨S100000x1, .i32⟩
  | 60 => ⟨S100000x256, .f32⟩
  | 61 => ⟨S100000x1, .f32⟩
  | 62 => ⟨S100000, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S256x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S256x256, .f32⟩
  | .local _ .vmem, ⟨32, _⟩ => ⟨S1x256, .f32⟩
  | .local _ .vmem, ⟨33, _⟩ => ⟨S256x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x1, .f32⟩
  | .local _ .vmem, ⟨41, _⟩ => ⟨S2000x1, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_c_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_c_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_6 : Ref sig .tc := ⟨.hbm, 63, rfl⟩
abbrev main_v37 : Ref sig .tc := ⟨.hbm, 64, rfl⟩
abbrev main_v38 : Ref sig .tc := ⟨.hbm, 65, rfl⟩
abbrev main_c_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_14 : Ref sig .tc := ⟨.hbm, 117, rfl⟩
abbrev main_v83 : Ref sig .tc := ⟨.hbm, 118, rfl⟩
abbrev main_v84 : Ref sig .tc := ⟨.hbm, 119, rfl⟩
abbrev main_c_15 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_16 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_17 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_18 : Ref sig .tc := ⟨.hbm, 140, rfl⟩
abbrev main_v102 : Ref sig .tc := ⟨.hbm, 141, rfl⟩
abbrev main_v103 : Ref sig .tc := ⟨.hbm, 142, rfl⟩
abbrev main_c_19 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_20 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_21 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_c_22 : Ref sig .tc := ⟨.hbm, 169, rfl⟩
abbrev main_v127 : Ref sig .tc := ⟨.hbm, 170, rfl⟩
abbrev main_v128 : Ref sig .tc := ⟨.hbm, 171, rfl⟩
abbrev main_c_23 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_c_24 : Ref sig .tc := ⟨.hbm, 180, rfl⟩
abbrev main_v136 : Ref sig .tc := ⟨.hbm, 181, rfl⟩
abbrev main_v137 : Ref sig .tc := ⟨.hbm, 182, rfl⟩
abbrev main_c_25 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x300000_S1x300000_1_0 : S2x300000.Slices ![1, 0] S1x300000
  shapeCasts_S1x300000_S300000 : S1x300000.ShapeCasts S300000
  slices_S2x300000_S1x300000_0_0 : S2x300000.Slices ![0, 0] S1x300000
  bcast_S300000_S1x300000_1 : S300000.BroadcastsInDim S1x300000 (![1] : Fin 1 → Fin S1x300000.rank)
  concatenates_S1x300000_S1x300000_S2x300000_d0 : Shape.Concatenates [S1x300000, S1x300000] S2x300000 0
  bcast_S_S100000 : S_.BroadcastsInDim S100000 (![] : Fin 0 → Fin S100000.rank)
  bcast_S100000_S100000x1_0 : S100000.BroadcastsInDim S100000x1 (![0] : Fin 1 → Fin S100000x1.rank)
  bcast_S_S300000 : S_.BroadcastsInDim S300000 (![] : Fin 0 → Fin S300000.rank)
  bcast_S300000_S300000x1_0 : S300000.BroadcastsInDim S300000x1 (![0] : Fin 1 → Fin S300000x1.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  transposes_S256x256_S256x256_1_0 : S256x256.Transposes [1, 0] S256x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2x100000_S1x100000_0_0 : S2x100000.Slices ![0, 0] S1x100000
  shapeCasts_S1x100000_S100000 : S1x100000.ShapeCasts S100000
  slices_S2x100000_S1x100000_1_0 : S2x100000.Slices ![1, 0] S1x100000
  reduces_S2000x256_S2000 : S2000x256.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  gather_S100000x256_S100000x1_S100000x256_1_0_n_n_0_1_1256_wf : GatherDims.WF S100000x256 S100000x1 S100000x256 [1] [0] [] [0] [] 1 ![1, 256]
  scatter_S100000_S300000x1_S300000_n_0_0_1_wf : ScatterDims.WF S100000 S300000x1 S300000 [] [0] [0] 1
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S100000x256.size a
  hwx1_5 : ∀ i : grid1.Coords, EltTy.bits .f32 = 32 ∨ (Rect.block (s := S100000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S100000x256.size a
  hwx2_5 : ∀ i : grid2.Coords, EltTy.bits .f32 = 32 ∨ (Rect.block (s := S100000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .f32 = 32 ∨ (Rect.block (s := S100000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S100000x256.size a
  hwx3_5 : ∀ i : grid3.Coords, EltTy.bits .f32 = 32 ∨ (Rect.block (s := S100000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S100000x256.size a
  hwx4_1 : ∀ i : grid4.Coords, EltTy.bits .f32 = 32 ∨ (Rect.block (s := S100000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)

variable [Facts₀]

def gather_S100000x256_S100000x1_S100000x256_1_0_n_n_0_1_1256 : GatherDims S100000x256 S100000x1 S100000x256 where
  offsetDims := [1]
  collapsedSliceDims := [0]
  operandBatchingDims := []
  startIndicesBatchingDims := []
  startIndexMap := [0]
  indexVectorDim := 1
  sliceSizes := ![1, 256]
  wf := gather_S100000x256_S100000x1_S100000x256_1_0_n_n_0_1_1256_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v51) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v71) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v73) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v72) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v74) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v70) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v75) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v77) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v76) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v78) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v97) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v117) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v119) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v118) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v120) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v116) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v121) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v123) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v122) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v124) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v133) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v142) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v143) S2000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000 : Shape := ⟨1, ![100000]⟩
abbrev S2x300000 : Shape := ⟨2, ![2, 300000]⟩
abbrev S2x100000 : Shape := ⟨2, ![2, 100000]⟩
abbrev S100000x256 : Shape := ⟨2, ![100000, 256]⟩
abbrev S256x256 : Shape := ⟨2, ![256, 256]⟩
abbrev S256 : Shape := ⟨1, ![256]⟩
abbrev S1x300000 : Shape := ⟨2, ![1, 300000]⟩
abbrev S300000 : Shape := ⟨1, ![300000]⟩
abbrev S_ : Shape := ⟨0, ![]⟩
abbrev S100000x1 : Shape := ⟨2, ![100000, 1]⟩
abbrev S300000x1 : Shape := ⟨2, ![300000, 1]⟩
abbrev S300000x256 : Shape := ⟨2, ![300000, 256]⟩
abbrev S1x256 : Shape := ⟨2, ![1, 256]⟩
abbrev S1x100000 : Shape := ⟨2, ![1, 100000]⟩

abbrev nBuf : Space → Nat
  | .hbm => 230
  | .vmem => 0
  | .smem => 0
  | _ => 0

abbrev hbmTy0_0 (i : Nat) : BufTy := match i % 128 with
  | 0 => ⟨S100000, .i32⟩
  | 1 => ⟨S100000, .i32⟩
  | 2 => ⟨S2x300000, .i32⟩
  | 3 => ⟨S2x100000, .i32⟩
  | 4 => ⟨S100000x256, .f32⟩
  | 5 => ⟨S100000x256, .f32⟩
  | 6 => ⟨S256x256, .f32⟩
  | 7 => ⟨S256, .f32⟩
  | 8 => ⟨S256x256, .f32⟩
  | 9 => ⟨S256x256, .f32⟩
  | 10 => ⟨S256, .f32⟩
  | 11 => ⟨S256x256, .f32⟩
  | 12 => ⟨S256x256, .f32⟩
  | 13 => ⟨S256, .f32⟩
  | 14 => ⟨S256x256, .f32⟩
  | 15 => ⟨S256x256, .f32⟩
  | 16 => ⟨S256, .f32⟩
  | 17 => ⟨S256x256, .f32⟩
  | 18 => ⟨S1x300000, .i32⟩
  | 19 => ⟨S300000, .i32⟩
  | 20 => ⟨S1x300000, .i32⟩
  | 21 => ⟨S300000, .i32⟩
  | 22 => ⟨S1x300000, .i32⟩
  | 23 => ⟨S1x300000, .i32⟩
  | 24 => ⟨S2x300000, .i32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S100000x256, .f32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x256, .f32⟩
  | 43 => ⟨S1x300000, .i32⟩
  | 44 => ⟨S300000, .i32⟩
  | 45 => ⟨S1x300000, .i32⟩
  | 46 => ⟨S300000, .i32⟩
  | 47 => ⟨S_, .i32⟩
  | 48 => ⟨S300000, .i32⟩
  | 49 => ⟨S300000, .i1⟩
  | 50 => ⟨S_, .i32⟩
  | 51 => ⟨S300000, .i32⟩
  | 52 => ⟨S300000, .i32⟩
  | 53 => ⟨S300000, .i32⟩
  | 54 => ⟨S300000x1, .i32⟩
  | 55 => ⟨S300000x256, .f32⟩
  | 56 => ⟨S_, .f32⟩
  | 57 => ⟨S100000x256, .f32⟩
  | 58 => ⟨S300000x1, .i32⟩
  | 59 => ⟨S100000x256, .f32⟩
  | 60 => ⟨S_, .f32⟩
  | 61 => ⟨S300000, .f32⟩
  | 62 => ⟨S_, .f32⟩
  | 63 => ⟨S100000, .f32⟩
  | 64 => ⟨S300000x1, .i32⟩
  | 65 => ⟨S100000, .f32⟩
  | 66 => ⟨S_, .f32⟩
  | 67 => ⟨S100000, .f32⟩
  | 68 => ⟨S100000, .f32⟩
  | 69 => ⟨S100000x1, .f32⟩
  | 70 => ⟨S100000x256, .f32⟩
  | 71 => ⟨S100000x256, .f32⟩
  | 72 => ⟨S256x256, .f32⟩
  | 73 => ⟨S100000x256, .f32⟩
  | 74 => ⟨S1x256, .f32⟩
  | 75 => ⟨S100000x256, .f32⟩
  | 76 => ⟨S100000x256, .f32⟩
  | 77 => ⟨S256x256, .f32⟩
  | 78 => ⟨S100000x256, .f32⟩
  | 79 => ⟨S100000x256, .f32⟩
  | 80 => ⟨S_, .f32⟩
  | 81 => ⟨S100000x256, .f32⟩
  | 82 => ⟨S100000x256, .f32⟩
  | 83 => ⟨S1x300000, .i32⟩
  | 84 => ⟨S300000, .i32⟩
  | 85 => ⟨S1x300000, .i32⟩
  | 86 => ⟨S300000, .i32⟩
  | 87 => ⟨S_, .i32⟩
  | 88 => ⟨S300000, .i32⟩
  | 89 => ⟨S300000, .i1⟩
  | 90 => ⟨S_, .i32⟩
  | 91 => ⟨S300000, .i32⟩
  | 92 => ⟨S300000, .i32⟩
  | 93 => ⟨S300000, .i32⟩
  | 94 => ⟨S300000x1, .i32⟩
  | 95 => ⟨S300000x256, .f32⟩
  | 96 => ⟨S_, .f32⟩
  | 97 => ⟨S100000x256, .f32⟩
  | 98 => ⟨S300000x1, .i32⟩
  | 99 => ⟨S100000x256, .f32⟩
  | 100 => ⟨S_, .f32⟩
  | 101 => ⟨S300000, .f32⟩
  | 102 => ⟨S_, .f32⟩
  | 103 => ⟨S100000, .f32⟩
  | 104 => ⟨S300000x1, .i32⟩
  | 105 => ⟨S100000, .f32⟩
  | 106 => ⟨S_, .f32⟩
  | 107 => ⟨S100000, .f32⟩
  | 108 => ⟨S100000, .f32⟩
  | 109 => ⟨S100000x1, .f32⟩
  | 110 => ⟨S100000x256, .f32⟩
  | 111 => ⟨S100000x256, .f32⟩
  | 112 => ⟨S256x256, .f32⟩
  | 113 => ⟨S100000x256, .f32⟩
  | 114 => ⟨S1x256, .f32⟩
  | 115 => ⟨S100000x256, .f32⟩
  | 116 => ⟨S100000x256, .f32⟩
  | 117 => ⟨S256x256, .f32⟩
  | 118 => ⟨S100000x256, .f32⟩
  | 119 => ⟨S100000x256, .f32⟩
  | 120 => ⟨S_, .f32⟩
  | 121 => ⟨S100000x256, .f32⟩
  | 122 => ⟨S100000x256, .f32⟩
  | 123 => ⟨S1x300000, .i32⟩
  | 124 => ⟨S300000, .i32⟩
  | 125 => ⟨S1x300000, .i32⟩
  | 126 => ⟨S300000, .i32⟩
  | 127 => ⟨S_, .i32⟩
  | _ => ⟨S100000, .i32⟩

abbrev hbmTy0_1 (i : Nat) : BufTy := match i % 128 with
  | 0 => ⟨S300000, .i32⟩
  | 1 => ⟨S300000, .i1⟩
  | 2 => ⟨S_, .i32⟩
  | 3 => ⟨S300000, .i32⟩
  | 4 => ⟨S300000, .i32⟩
  | 5 => ⟨S300000, .i32⟩
  | 6 => ⟨S300000x1, .i32⟩
  | 7 => ⟨S300000x256, .f32⟩
  | 8 => ⟨S_, .f32⟩
  | 9 => ⟨S100000x256, .f32⟩
  | 10 => ⟨S300000x1, .i32⟩
  | 11 => ⟨S100000x256, .f32⟩
  | 12 => ⟨S_, .f32⟩
  | 13 => ⟨S300000, .f32⟩
  | 14 => ⟨S_, .f32⟩
  | 15 => ⟨S100000, .f32⟩
  | 16 => ⟨S300000x1, .i32⟩
  | 17 => ⟨S100000, .f32⟩
  | 18 => ⟨S_, .f32⟩
  | 19 => ⟨S100000, .f32⟩
  | 20 => ⟨S100000, .f32⟩
  | 21 => ⟨S100000x1, .f32⟩
  | 22 => ⟨S100000x256, .f32⟩
  | 23 => ⟨S100000x256, .f32⟩
  | 24 => ⟨S256x256, .f32⟩
  | 25 => ⟨S100000x256, .f32⟩
  | 26 => ⟨S1x256, .f32⟩
  | 27 => ⟨S100000x256, .f32⟩
  | 28 => ⟨S100000x256, .f32⟩
  | 29 => ⟨S256x256, .f32⟩
  | 30 => ⟨S100000x256, .f32⟩
  | 31 => ⟨S100000x256, .f32⟩
  | 32 => ⟨S1x300000, .i32⟩
  | 33 => ⟨S300000, .i32⟩
  | 34 => ⟨S1x300000, .i32⟩
  | 35 => ⟨S300000, .i32⟩
  | 36 => ⟨S_, .i32⟩
  | 37 => ⟨S300000, .i32⟩
  | 38 => ⟨S300000, .i1⟩
  | 39 => ⟨S_, .i32⟩
  | 40 => ⟨S300000, .i32⟩
  | 41 => ⟨S300000, .i32⟩
  | 42 => ⟨S300000, .i32⟩
  | 43 => ⟨S300000x1, .i32⟩
  | 44 => ⟨S300000x256, .f32⟩
  | 45 => ⟨S_, .f32⟩
  | 46 => ⟨S100000x256, .f32⟩
  | 47 => ⟨S300000x1, .i32⟩
  | 48 => ⟨S100000x256, .f32⟩
  | 49 => ⟨S_, .f32⟩
  | 50 => ⟨S300000, .f32⟩
  | 51 => ⟨S_, .f32⟩
  | 52 => ⟨S100000, .f32⟩
  | 53 => ⟨S300000x1, .i32⟩
  | 54 => ⟨S100000, .f32⟩
  | 55 => ⟨S_, .f32⟩
  | 56 => ⟨S100000, .f32⟩
  | 57 => ⟨S100000, .f32⟩
  | 58 => ⟨S100000x1, .f32⟩
  | 59 => ⟨S100000x256, .f32⟩
  | 60 => ⟨S100000x256, .f32⟩
  | 61 => ⟨S256x256, .f32⟩
  | 62 => ⟨S100000x256, .f32⟩
  | 63 => ⟨S1x256, .f32⟩
  | 64 => ⟨S100000x256, .f32⟩
  | 65 => ⟨S100000x256, .f32⟩
  | 66 => ⟨S256x256, .f32⟩
  | 67 => ⟨S100000x256, .f32⟩
  | 68 => ⟨S100000x256, .f32⟩
  | 69 => ⟨S1x100000, .i32⟩
  | 70 => ⟨S100000, .i32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000x256, .f32⟩
  | 80 => ⟨S1x100000, .i32⟩
  | 81 => ⟨S100000, .i32⟩
  | 82 => ⟨S_, .i32⟩
  | 83 => ⟨S100000, .i32⟩
  | 84 => ⟨S100000, .i1⟩
  | 85 => ⟨S_, .i32⟩
  | 86 => ⟨S100000, .i32⟩
  | 87 => ⟨S100000, .i32⟩
  | 88 => ⟨S100000, .i32⟩
  | 89 => ⟨S100000x1, .i32⟩
  | 90 => ⟨S100000x256, .f32⟩
  | 91 => ⟨S100000x256, .f32⟩
  | 92 => ⟨S_, .f32⟩
  | 93 => ⟨S100000, .f32⟩
  | 94 => ⟨S100000, .f32⟩
  | 95 => ⟨S100000, .f32⟩
  | 96 => ⟨S_, .f32⟩
  | 97 => ⟨S100000, .f32⟩
  | 98 => ⟨S100000, .f32⟩
  | 99 => ⟨S_, .f32⟩
  | 100 => ⟨S100000, .f32⟩
  | 101 => ⟨S100000, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_c_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_c_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_3 : Ref sig .tc := ⟨.hbm, 47, rfl⟩
abbrev main_v25 : Ref sig .tc := ⟨.hbm, 48, rfl⟩
abbrev main_v26 : Ref sig .tc := ⟨.hbm, 49, rfl⟩
abbrev main_c_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call0_cst : Ref sig .tc := ⟨.hbm, 80, rfl⟩
abbrev main_call0_v0 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_8 : Ref sig .tc := ⟨.hbm, 87, rfl⟩
abbrev main_v57 : Ref sig .tc := ⟨.hbm, 88, rfl⟩
abbrev main_v58 : Ref sig .tc := ⟨.hbm, 89, rfl⟩
abbrev main_c_9 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_10 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_11 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_call1_cst : Ref sig .tc := ⟨.hbm, 120, rfl⟩
abbrev main_call1_v0 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_14 : Ref sig .tc := ⟨.hbm, 127, rfl⟩
abbrev main_v89 : Ref sig .tc := ⟨.hbm, 128, rfl⟩
abbrev main_v90 : Ref sig .tc := ⟨.hbm, 129, rfl⟩
abbrev main_c_15 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_16 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_17 : Ref sig .tc := ⟨.hbm, 140, rfl⟩
abbrev main_v99 : Ref sig .tc := ⟨.hbm, 141, rfl⟩
abbrev main_cst_18 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_19 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_c_20 : Ref sig .tc := ⟨.hbm, 164, rfl⟩
abbrev main_v120 : Ref sig .tc := ⟨.hbm, 165, rfl⟩
abbrev main_v121 : Ref sig .tc := ⟨.hbm, 166, rfl⟩
abbrev main_c_21 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_22 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_23 : Ref sig .tc := ⟨.hbm, 177, rfl⟩
abbrev main_v130 : Ref sig .tc := ⟨.hbm, 178, rfl⟩
abbrev main_cst_24 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_25 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_c_26 : Ref sig .tc := ⟨.hbm, 199, rfl⟩
abbrev main_v149 : Ref sig .tc := ⟨.hbm, 200, rfl⟩
abbrev main_v150 : Ref sig .tc := ⟨.hbm, 201, rfl⟩
abbrev main_c_27 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_c_28 : Ref sig .tc := ⟨.hbm, 210, rfl⟩
abbrev main_v158 : Ref sig .tc := ⟨.hbm, 211, rfl⟩
abbrev main_v159 : Ref sig .tc := ⟨.hbm, 212, rfl⟩
abbrev main_c_29 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_cst_30 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_cst_31 : Ref sig .tc := ⟨.hbm, 224, rfl⟩
abbrev main_v169 : Ref sig .tc := ⟨.hbm, 225, rfl⟩
abbrev main_v170 : Ref sig .tc := ⟨.hbm, 226, rfl⟩
abbrev main_cst_32 : Ref sig .tc := ⟨.hbm, 227, rfl⟩
abbrev main_v171 : Ref sig .tc := ⟨.hbm, 228, rfl⟩
abbrev main_v172 : Ref sig .tc := ⟨.hbm, 229, rfl⟩

abbrev nD : Nat := 1
abbrev τ : Topo := Topo.v7x

variable {F : FTy → Type} [FloatOps F]

class Facts₀ : Prop where
  slices_S2x300000_S1x300000_1_0 : S2x300000.Slices ![1, 0] S1x300000
  shapeCasts_S1x300000_S300000 : S1x300000.ShapeCasts S300000
  slices_S2x300000_S1x300000_0_0 : S2x300000.Slices ![0, 0] S1x300000
  bcast_S300000_S1x300000_1 : S300000.BroadcastsInDim S1x300000 (![1] : Fin 1 → Fin S1x300000.rank)
  concatenates_S1x300000_S1x300000_S2x300000_d0 : Shape.Concatenates [S1x300000, S1x300000] S2x300000 0
  bcast_S_S100000 : S_.BroadcastsInDim S100000 (![] : Fin 0 → Fin S100000.rank)
  bcast_S100000_S100000x1_0 : S100000.BroadcastsInDim S100000x1 (![0] : Fin 1 → Fin S100000x1.rank)
  bcast_S_S300000 : S_.BroadcastsInDim S300000 (![] : Fin 0 → Fin S300000.rank)
  bcast_S300000_S300000x1_0 : S300000.BroadcastsInDim S300000x1 (![0] : Fin 1 → Fin S300000x1.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  reducesTo_S100000x256_S100000_d1 : S100000x256.ReducesTo [1] S100000
  h_S_ : 0 < S_.numel
  gather_S100000x256_S100000x1_S100000x256_1_0_n_n_0_1_1256_wf : GatherDims.WF S100000x256 S100000x1 S100000x256 [1] [0] [] [0] [] 1 ![1, 256]
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  scatter_S100000_S300000x1_S300000_n_0_0_1_wf : ScatterDims.WF S100000 S300000x1 S300000 [] [0] [0] 1
  dot_S100000x256_S256x256_S100000x256_1_0_0_1_n_n_wf : DotDims.WF S100000x256 S256x256 S100000x256 [1] [0] [0] [1] [] []

variable [Facts₀]

def gather_S100000x256_S100000x1_S100000x256_1_0_n_n_0_1_1256 : GatherDims S100000x256 S100000x1 S100000x256 where
  offsetDims := [1]
  collapsedSliceDims := [0]
  operandBatchingDims := []
  startIndicesBatchingDims := []
  startIndexMap := [0]
  indexVectorDim := 1
  sliceSizes := ![1, 256]
  wf := gather_S100000x256_S100000x1_S100000x256_1_0_n_n_0_1_1256_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.EndRun.lean ====
/-
  The whole program's run, with the result buffer kept.

  The program is six stretches of host operations around five on-chip regions. Its run is a fold over buffer contents:
  from the launch memory, each stretch applies its operations, and each region replaces its output array by what its
  grid points write back and leaves every other buffer as it found it. Every weakly fair execution ends with every
  unscoped buffer at the last stage of that fold; here that fact is kept for the result buffer, next to the argument
  arrays, which no stage writes.
-/
import proofs.«100248_j21938692948530_1_alg».proof.Proof.Gen.KernelIdeal.Frame

set_option maxRecDepth 16384

noncomputable section

namespace Cert.LinkScore

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, with the result buffer at the last stage of the fold and
    the argument arrays as launched. -/
theorem run_end : θ_run defs (onTc (τ := τ) (main (F := F))) ⟨m, fun _ => 0, ρ⟩ (fun r => ∀ c : Dev nD,
      r.2.mem ((c.tc : Thread nD τ).loc main_v144) = W11 m ρ c (Proc.devRef .tc main_v144)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v144 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c)⟩)

end Cert.LinkScore

end
-- ==== Proof.Spec.lean ====
/-
  The two whole-array functions this program is built from, over the extended reals.

  A layer's linear stage. For every node r and feature q,
      out(r, q) = (sum_k mean(r,k) * wl(k,q)  +  sum_k x(r,k) * wr(k,q))  +  b(0,q),
  where mean holds each node's aggregated neighbour features, x the node's own features, wl and wr two 256 x 256
  weight matrices already laid out with the contracted coordinate first, and b the bias as a row. The first layer
  clamps the result below at zero; the second leaves it.

  The edge scorer. For every supervision edge r, the logistic function of the inner product of the two endpoint
  rows, kept as a column:
      score(r, 0) = logistic (sum_k xi(r,k) * xj(r,k)).

  Adding the bias last or between the two products is the same sum: addition of extended reals is associative and
  commutative, with no finiteness needed.
-/
import Idealize.ShloMosaic.PureOps.Ideal
import Idealize.ShloMosaic.Lib.ValueIdx

noncomputable section

namespace Cert.LinkScore

open Idealize.ShloMosaic Idealize.ShloMosaic.ValueIdx

/-- Node features: 100000 nodes, 256 features each. -/
abbrev Nodes : Shape := ⟨2, ![100000, 256]⟩
/-- A weight matrix. -/
abbrev Weights : Shape := ⟨2, ![256, 256]⟩
/-- The bias as a row. -/
abbrev BiasRow : Shape := ⟨2, ![1, 256]⟩
/-- One score per supervision edge, as a column. -/
abbrev ScoreCol : Shape := ⟨2, ![100000, 1]⟩

/-- One entry of a layer's linear stage: the two inner products, then the bias. -/
def layerEntry (mean x : Nodes.Idx → EReal) (wl : Weights.Idx → EReal) (b : BiasRow.Idx → EReal) (wr : Weights.Idx → EReal)
    (r : Fin 100000) (q : Fin 256) : EReal :=
  (∑ k : Fin 256, mean (ix2 r k) * wl (ix2 k q) + ∑ k : Fin 256, x (ix2 r k) * wr (ix2 k q)) + b (ix2 (0 : Fin 1) q)

/-- The second layer's linear stage, as one array. -/
def layerLinear (mean x : Nodes.Idx → EReal) (wl : Weights.Idx → EReal) (b : BiasRow.Idx → EReal) (wr : Weights.Idx → EReal) :
    Nodes.Idx → EReal :=
  fun i => layerEntry mean x wl b wr ⟨(i 0).val, idx2_lt0 i⟩ ⟨(i 1).val, idx2_lt1 i⟩

/-- The first layer's stage: the linear stage clamped below at zero. -/
def layerClamped (mean x : Nodes.Idx → EReal) (wl : Weights.Idx → EReal) (b : BiasRow.Idx → EReal) (wr : Weights.Idx → EReal) :
    Nodes.Idx → EReal :=
  fun i => max (layerLinear mean x wl b wr i) (Ideal.ofBits .f32 0x00000000#32)

theorem layerLinear_ix2 (mean x : Nodes.Idx → EReal) (wl : Weights.Idx → EReal) (b : BiasRow.Idx → EReal) (wr : Weights.Idx → EReal)
    (r : Fin 100000) (q : Fin 256) : layerLinear mean x wl b wr (ix2 r q) = layerEntry mean x wl b wr r q := rfl

theorem layerClamped_ix2 (mean x : Nodes.Idx → EReal) (wl : Weights.Idx → EReal) (b : BiasRow.Idx → EReal) (wr : Weights.Idx → EReal)
    (r : Fin 100000) (q : Fin 256) :
    layerClamped mean x wl b wr (ix2 r q) = max (layerEntry mean x wl b wr r q) (Ideal.ofBits .f32 0x00000000#32) := rfl

/-- The edge scorer's column. -/
def scoreOut (xi xj : Nodes.Idx → EReal) : ScoreCol.Idx → EReal :=
  fun i => Ideal.logistic (∑ k : Fin 256, xi (ix2 (⟨(i 0).val, idx2_lt0 i⟩ : Fin 100000) k) * xj (ix2 (⟨(i 0).val, idx2_lt0 i⟩ : Fin 100000) k))

theorem scoreOut_ix2 (xi xj : Nodes.Idx → EReal) (r : Fin 100000) (u : Fin 1) :
    scoreOut xi xj (ix2 r u) = Ideal.logistic (∑ k : Fin 256, xi (ix2 r k) * xj (ix2 r k)) := rfl

/-- The bias added between the two products or after them: one sum. -/
theorem bias_between (a b c : EReal) : (a + c) + b = (a + b) + c := add_right_comm a c b

end Cert.LinkScore

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.RefValue.lean ====
/-
  The reference program's layers and result, identified with the specification's whole-array functions.

  The reference computes a layer as a chain of host operations: the neighbour means times a transposed weight matrix,
  plus the bias spread over all nodes, plus the nodes' own features times a second transposed weight matrix, and in the
  first layer a maximum against a zero array. Read at an entry, each matrix product is the plain sum over the
  contracted coordinate and the spread bias is the bias row's entry, so the chain is the specification's layer; the only
  rearrangement is that the reference adds the bias between the two products where the specification adds it last, and
  addition of extended reals is associative and commutative.

  The reference's score is the quotient 1 / (1 + exp (-s)) of the two endpoint rows' inner product s, spelt out in host
  operations; that expression is by definition the logistic function on the extended reals, infinities included, so
  the result is the specification's score column laid out as a vector.
-/
import proofs.«100248_j21938692948530_1_alg».proof.Proof.Gen.ReferenceIdeal.Read
import proofs.«100248_j21938692948530_1_alg».proof.Proof.Spec
import proofs.«100248_j21938692948530_1_alg».proof.Proof.LibPlainDot
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.LinkScore

open Idealize.ShloMosaic Idealize.ShloMosaic.ValueIdx
open Cert.ReferenceIdeal Cert.ReferenceIdeal.Gen Cert.ReferenceIdeal.Read

/-- The bias row spread over all nodes, read at an entry: the row's entry of that column. -/
theorem biasRows_apply (b : FVec Ideal S1x256 .f32) (r : Fin 100000) (q : Fin 256) :
    broadcastInDim S100000x256 ![0, 1] bcast_S1x256_S100000x256_0_1 b (ix2 r q) = b (ix2 (0 : Fin 1) q) :=
  broadcastInDim_apply _ bcast_S1x256_S100000x256_0_1 b (ix2 r q) (ix2 (0 : Fin 1) q) (fun a => match a with
    | ⟨0, _⟩ => by show 0 = if (1 : Nat) = 1 then 0 else r.val; rw [if_pos rfl]
    | ⟨1, _⟩ => by show q.val = if (256 : Nat) = 1 then 0 else q.val; rw [if_neg (by decide)])

/-- The reference's chain for a layer's linear stage is the specification's. -/
theorem ref_linear (mean x : FVec Ideal S100000x256 .f32) (wl : FVec Ideal S256x256 .f32) (b : FVec Ideal S1x256 .f32)
    (wr : FVec Ideal S256x256 .f32) :
    addf (addf (Host.dotGeneral dot_S100000x256_S256x256_S100000x256_1_0_0_1_n_n none mean wl)
        (broadcastInDim S100000x256 ![0, 1] bcast_S1x256_S100000x256_0_1 b))
      (Host.dotGeneral dot_S100000x256_S256x256_S100000x256_1_0_0_1_n_n none x wr)
    = layerLinear mean x wl b wr := by
  funext i
  obtain ⟨r, q, rfl⟩ : ∃ (r : Fin 100000) (q : Fin 256), i = ix2 r q := ⟨i 0, i 1, eq_ix2 i⟩
  rw [layerLinear_ix2, addf_apply, addf_apply, biasRows_apply]
  simp only [Host.dotGeneral]
  rw [Cert.PlainDot.dotGeneral_apply dot_S100000x256_S256x256_S100000x256_1_0_0_1_n_n rfl none _ mean wl r q,
    Cert.PlainDot.dotGeneral_apply dot_S100000x256_S256x256_S100000x256_1_0_0_1_n_n rfl none _ x wr r q]
  exact add_right_comm _ _ _

/-- The same, clamped below at zero: the first layer's chain. -/
theorem ref_clamped (mean x : FVec Ideal S100000x256 .f32) (wl : FVec Ideal S256x256 .f32) (b : FVec Ideal S1x256 .f32)
    (wr : FVec Ideal S256x256 .f32) :
    maximumf (addf (addf (Host.dotGeneral dot_S100000x256_S256x256_S100000x256_1_0_0_1_n_n none mean wl)
          (broadcastInDim S100000x256 ![0, 1] bcast_S1x256_S100000x256_0_1 b))
        (Host.dotGeneral dot_S100000x256_S256x256_S100000x256_1_0_0_1_n_n none x wr))
      (broadcastInDim S100000x256 ![] bcast_S_S100000x256 (constant (F := Ideal) S_ .f32 0x00000000#32))
    = layerClamped mean x wl b wr := by
  funext i
  rw [maximumf_apply, ref_linear, broadcastInDim_scalar_apply]
  rfl

/-- Each row's sum of a node-feature array, from a zero start. -/
theorem rowSum_apply (y : FVec Ideal S100000x256 .f32) (r : Fin 100000) :
    Host.reduceAdd y (constant (F := Ideal) S_ .f32 0x00000000#32) reducesTo_S100000x256_S100000_d1 h_S_ (ix1 r)
      = ∑ k : Fin 256, y (ix2 r k) := by
  simp only [Host.reduceAdd, Ideal.hostReduceAdd_def]
  rw [Ideal.hostReduceAdd_single reducesTo_S100000x256_S100000_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- A column laid out as a vector reads, at r, the column's entry of row r. -/
theorem column_as_vector_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The reference's score chain is the specification's score column laid out as a vector. -/
theorem ref_score (xi xj : FVec Ideal S100000x256 .f32) (h : ScoreCol.ShapeCasts ⟨1, ![100000]⟩) :
    Host.divf (broadcastInDim S100000 ![] bcast_S_S100000 (constant (F := Ideal) S_ .f32 0x3F800000#32))
      (addf (broadcastInDim S100000 ![] bcast_S_S100000 (constant (F := Ideal) S_ .f32 0x3F800000#32))
        (Host.exp (Host.negf (Host.reduceAdd (mulf xi xj) (constant (F := Ideal) S_ .f32 0x00000000#32)
          reducesTo_S100000x256_S100000_d1 h_S_))))
    = shapeCast ⟨1, ![100000]⟩ (scoreOut xi xj) h := by
  funext i
  obtain ⟨r, rfl⟩ : ∃ r : Fin 100000, i = ix1 r := ⟨i 0, eq_ix1 i⟩
  rw [column_as_vector_apply, scoreOut_ix2, hostDivf_apply, addf_apply, broadcastInDim_scalar_apply, constant_apply,
    Ideal.ofBits_one_f32]
  simp only [Host.exp, Host.negf, Ideal.hostUnary_exp_def, Ideal.hostNegf_def, Ideal.negf_def]
  rw [rowSum_apply]
  rfl

/-! ## The reference's own stages -/

/-- First layer, target nodes. -/
theorem layer1_tgt (x0 x1 : (⟨S100000, .i32⟩ : BufTy).Contents (Elt Ideal)) (x2 : (⟨S2x300000, .i32⟩ : BufTy).Contents (Elt Ideal)) (x4 x5 : (⟨S100000x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) :
    val_main_v52 (F := Ideal) x0 x1 x2 x4 x5 x6 x7 x8
      = layerClamped (val_main_v43 (F := Ideal) x0 x2 x4) (val_main_v20 (F := Ideal) x1 x5) (val_main_v44 (F := Ideal) x6) (val_main_v46 (F := Ideal) x7) (val_main_v49 (F := Ideal) x8) :=
  ref_clamped (val_main_v43 (F := Ideal) x0 x2 x4) (val_main_v20 (F := Ideal) x1 x5) (val_main_v44 (F := Ideal) x6) (val_main_v46 (F := Ideal) x7) (val_main_v49 (F := Ideal) x8)

/-- First layer, source nodes. -/
theorem layer1_src (x0 x1 : (⟨S100000, .i32⟩ : BufTy).Contents (Elt Ideal)) (x2 : (⟨S2x300000, .i32⟩ : BufTy).Contents (Elt Ideal)) (x4 x5 : (⟨S100000x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) :
    val_main_v84 (F := Ideal) x0 x1 x2 x4 x5 x9 x10 x11
      = layerClamped (val_main_v75 (F := Ideal) x1 x2 x5) (val_main_v13 (F := Ideal) x0 x4) (val_main_v76 (F := Ideal) x9) (val_main_v78 (F := Ideal) x10) (val_main_v81 (F := Ideal) x11) :=
  ref_clamped (val_main_v75 (F := Ideal) x1 x2 x5) (val_main_v13 (F := Ideal) x0 x4) (val_main_v76 (F := Ideal) x9) (val_main_v78 (F := Ideal) x10) (val_main_v81 (F := Ideal) x11)

/-- Second layer, target nodes. -/
theorem layer2_tgt (x0 x1 : (⟨S100000, .i32⟩ : BufTy).Contents (Elt Ideal)) (x2 : (⟨S2x300000, .i32⟩ : BufTy).Contents (Elt Ideal)) (x4 x5 : (⟨S100000x256, .f32⟩ : BufTy).Contents (Elt Ideal)) (x6 : (⟨S256x256, .f32⟩ : BufTy).Contents (Elt Ideal)) (x7 : (⟨S256, .f32⟩ : BufTy).Contents (Elt Ideal)) (x8 x9 : (⟨S256x256, .f32⟩ : BufTy).Contents (Elt Ideal)) (x10 : (⟨S256, .f32⟩ : BufTy).Contents (Elt Ideal)) (x11 x12 : (⟨S256x256, .f32⟩ : BufTy).Contents (Elt Ideal)) (x13 : (⟨S256, .f32⟩ : BufTy).Contents (Elt Ideal)) (x14 : (⟨S256x256, .f32⟩ : BufTy).Contents (Elt Ideal)) :
    val_main_v115 (F := Ideal) x0 x1 x2 x4 x5 x6 x7 x8 x9 x10 x11 x12 x13 x14
      = layerLinear (val_main_v107 (F := Ideal) x0 x1 x2 x4 x5 x9 x10 x11) (val_main_v52 (F := Ideal) x0 x1 x2 x4 x5 x6 x7 x8) (val_main_v108 (F := Ideal) x12) (val_main_v110 (F := Ideal) x13) (val_main_v113 (F := Ideal) x14) :=
  ref_linear (val_main_v107 (F := Ideal) x0 x1 x2 x4 x5 x9 x10 x11) (val_main_v52 (F := Ideal) x0 x1 x2 x4 x5 x6 x7 x8) (val_main_v108 (F := Ideal) x12) (val_main_v110 (F := Ideal) x13) (val_main_v113 (F := Ideal) x14)

/-- Second layer, source nodes. -/
theorem layer2_src (x0 x1 : (⟨S100000, .i32⟩ : BufTy).Contents (Elt Ideal)) (x2 : (⟨S2x300000, .i32⟩ : BufTy).Contents (Elt Ideal)) (x4 x5 : (⟨S100000x256, .f32⟩ : BufTy).Contents (Elt Ideal)) (x6 : (⟨S256x256, .f32⟩ : BufTy).Contents (Elt Ideal)) (x7 : (⟨S256, .f32⟩ : BufTy).Contents (Elt Ideal)) (x8 x9 : (⟨S256x256, .f32⟩ : BufTy).Contents (Elt Ideal)) (x10 : (⟨S256, .f32⟩ : BufTy).Contents (Elt Ideal)) (x11 x15 : (⟨S256x256, .f32⟩ : BufTy).Contents (Elt Ideal)) (x16 : (⟨S256, .f32⟩ : BufTy).Contents (Elt Ideal)) (x17 : (⟨S256x256, .f32⟩ : BufTy).Contents (Elt Ideal)) :
    val_main_v146 (F := Ideal) x0 x1 x2 x4 x5 x6 x7 x8 x9 x10 x11 x15 x16 x17
      = layerLinear (val_main_v138 (F := Ideal) x0 x1 x2 x4 x5 x6 x7 x8) (val_main_v84 (F := Ideal) x0 x1 x2 x4 x5 x9 x10 x11) (val_main_v139 (F := Ideal) x15) (val_main_v141 (F := Ideal) x16) (val_main_v144 (F := Ideal) x17) :=
  ref_linear (val_main_v138 (F := Ideal) x0 x1 x2 x4 x5 x6 x7 x8) (val_main_v84 (F := Ideal) x0 x1 x2 x4 x5 x9 x10 x11) (val_main_v139 (F := Ideal) x15) (val_main_v141 (F := Ideal) x16) (val_main_v144 (F := Ideal) x17)

/-- The result: the score column of the two gathered endpoint arrays, as a vector. -/
theorem result_is_score (x0 x1 : (⟨S100000, .i32⟩ : BufTy).Contents (Elt Ideal)) (x2 : (⟨S2x300000, .i32⟩ : BufTy).Contents (Elt Ideal)) (x3 : (⟨S2x100000, .i32⟩ : BufTy).Contents (Elt Ideal)) (x4 x5 : (⟨S100000x256, .f32⟩ : BufTy).Contents (Elt Ideal)) (x6 : (⟨S256x256, .f32⟩ : BufTy).Contents (Elt Ideal)) (x7 : (⟨S256, .f32⟩ : BufTy).Contents (Elt Ideal)) (x8 x9 : (⟨S256x256, .f32⟩ : BufTy).Contents (Elt Ideal)) (x10 : (⟨S256, .f32⟩ : BufTy).Contents (Elt Ideal)) (x11 x12 : (⟨S256x256, .f32⟩ : BufTy).Contents (Elt Ideal)) (x13 : (⟨S256, .f32⟩ : BufTy).Contents (Elt Ideal)) (x14 x15 : (⟨S256x256, .f32⟩ : BufTy).Contents (Elt Ideal)) (x16 : (⟨S256, .f32⟩ : BufTy).Contents (Elt Ideal)) (x17 : (⟨S256x256, .f32⟩ : BufTy).Contents (Elt Ideal)) (h : ScoreCol.ShapeCasts ⟨1, ![100000]⟩) :
    val_main_v172 (F := Ideal) x0 x1 x2 x3 x4 x5 x6 x7 x8 x9 x10 x11 x12 x13 x14 x15 x16 x17
      = shapeCast ⟨1, ![100000]⟩ (scoreOut (val_main_v155 (F := Ideal) x0 x1 x2 x3 x4 x5 x6 x7 x8 x9 x10 x11 x15 x16 x17) (val_main_v164 (F := Ideal) x0 x1 x2 x3 x4 x5 x6 x7 x8 x9 x10 x11 x12 x13 x14)) h :=
  ref_score (val_main_v155 (F := Ideal) x0 x1 x2 x3 x4 x5 x6 x7 x8 x9 x10 x11 x15 x16 x17) (val_main_v164 (F := Ideal) x0 x1 x2 x3 x4 x5 x6 x7 x8 x9 x10 x11 x12 x13 x14) h

end Cert.LinkScore

end
-- ==== Proof.LibRowVector.lean ====
/-
  A vector laid out as a row. Reshaping a vector of n entries to a [1, n] array and broadcasting it to a [1, n] array
  along the second axis give the same array: entry (0, j) of either is entry j of the vector.
-/
import Idealize.ShloMosaic.Lib.Pipeline.Value
import Idealize.ShloMosaic.Lib.ValueIdx

noncomputable section

namespace Cert.RowVector

open Idealize.ShloMosaic

variable {α : Type} {n : ℕ}

/-- The reshape of a vector to a row, read at an entry: the vector at the entry's column. -/
theorem reshape_apply (x : (⟨1, ![n]⟩ : Shape).Idx → α) (h : (⟨1, ![n]⟩ : Shape).ShapeCasts ⟨2, ![1, n]⟩)
    (j : (⟨2, ![1, n]⟩ : Shape).Idx) : shapeCast ⟨2, ![1, n]⟩ x h j = x (fun a => j a.succ) :=
  shapeCast_addUnit_apply ![n] x h j

/-- The broadcast of a vector to a row along the second axis, read at an entry: the vector at the entry's column. -/
theorem broadcast_apply (x : (⟨1, ![n]⟩ : Shape).Idx → α) (h : (⟨1, ![n]⟩ : Shape).BroadcastsInDim ⟨2, ![1, n]⟩ ![1])
    (j : (⟨2, ![1, n]⟩ : Shape).Idx) : broadcastInDim ⟨2, ![1, n]⟩ ![1] h x j = x (fun a => j a.succ) := by
  refine broadcastInDim_apply ![1] h x j (fun a => j a.succ) (fun a => ?_)
  match a with
  | ⟨0, _⟩ =>
    show (j 1).val = if n = 1 then 0 else (j 1).val
    by_cases h1 : n = 1
    · rw [if_pos h1]
      have hlt : (j 1).val < n := (j 1).isLt
      omega
    · rw [if_neg h1]

/-- The two layouts are one array. -/
theorem reshape_eq_broadcast (x : (⟨1, ![n]⟩ : Shape).Idx → α) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x :=
  funext fun j => (reshape_apply x h j).trans (broadcast_apply x hb j).symm

end Cert.RowVector

end
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.BodyValue.lean ====
/-
  The three on-chip bodies of this program, each read at one entry of the block it stores, over the extended reals.

  A layer's linear stage takes a block of 2000 rows of the aggregated neighbour means, the same rows of the nodes' own
  features, two 256 x 256 weight matrices and a bias row, and stores, at row p and column q,
      (sum_k mean(p,k) * wl(k,q)  +  sum_k x(p,k) * wr(k,q))  +  b(0,q),
  clamped below at zero in the first layer and left as it is in the second. Rounding the operands to a narrower format
  on the way into the products is the identity on the extended reals, and a product accumulated into a zero block is
  the plain sum over the contracted coordinate.

  The edge scorer takes two blocks of 2000 rows and stores, at row p of its one column, the logistic function of the
  rows' inner product sum_k xi(p,k) * xj(p,k).
-/
import proofs.«100248_j21938692948530_1_alg».proof.Proof.Gen.KernelIdeal.Skeleton
import proofs.«100248_j21938692948530_1_alg».proof.Proof.LibPlainDot
import proofs.«100248_j21938692948530_1_alg».proof.Proof.LibLaneSum
import proofs.«100248_j21938692948530_1_alg».proof.Proof.LibColumn
import proofs.«100248_j21938692948530_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.LinkScore

open Idealize.ShloMosaic Idealize.ShloMosaic.ValueIdx Cert.KernelIdeal Cert.KernelIdeal.Gen

/-- One entry of a layer's linear stage before any clamping: the two inner products, then the bias. -/
def linEntry (mean x : (⟨2, ![2000, 256]⟩ : Shape).Idx → EReal) (wl wr : (⟨2, ![256, 256]⟩ : Shape).Idx → EReal)
    (b : (⟨2, ![1, 256]⟩ : Shape).Idx → EReal) (p : Fin 2000) (q : Fin 256) : EReal :=
  (∑ k : Fin 256, mean (ix2 p k) * wl (ix2 k q) + ∑ k : Fin 256, x (ix2 p k) * wr (ix2 k q)) + b (ix2 (0 : Fin 1) q)

/-- A block entry is the layer's entry for the node it belongs to, once each fetched block's row p is row r of its
    array and the whole-array windows are their arrays. -/
theorem entry_of_blocks (x0 x1 : (⟨2, ![2000, 256]⟩ : Shape).Idx → EReal) (x2 x4 : (⟨2, ![256, 256]⟩ : Shape).Idx → EReal)
    (x3 : (⟨2, ![1, 256]⟩ : Shape).Idx → EReal) (a0 a1 : Nodes.Idx → EReal) (a2 : Weights.Idx → EReal) (a3 : BiasRow.Idx → EReal)
    (a4 : Weights.Idx → EReal) (p : Fin 2000) (q : Fin 256) (r : Fin 100000)
    (h0 : ∀ k : Fin 256, x0 (ix2 p k) = a0 (ix2 r k)) (h1 : ∀ k : Fin 256, x1 (ix2 p k) = a1 (ix2 r k))
    (h2 : ∀ k : Fin 256, x2 (ix2 k q) = a2 (ix2 k q)) (h4 : ∀ k : Fin 256, x4 (ix2 k q) = a4 (ix2 k q))
    (h3 : x3 (ix2 (0 : Fin 1) q) = a3 (ix2 (0 : Fin 1) q)) :
    linEntry x0 x1 x2 x4 x3 p q = layerEntry a0 a1 a2 a3 a4 r q := by
  unfold linEntry layerEntry
  rw [h3]
  refine congrArg (· + _) (congrArg₂ (· + ·) (Finset.sum_congr rfl fun k _ => ?_) (Finset.sum_congr rfl fun k _ => ?_))
  · rw [h0 k, h2 k]
  · rw [h1 k, h4 k]

/-- The same for the edge scorer: the inner product of two block rows is that of the two array rows. -/
theorem score_of_blocks (x0 x1 : (⟨2, ![2000, 256]⟩ : Shape).Idx → EReal) (a0 a1 : Nodes.Idx → EReal) (p : Fin 2000) (r : Fin 100000)
    (h0 : ∀ k : Fin 256, x0 (ix2 p k) = a0 (ix2 r k)) (h1 : ∀ k : Fin 256, x1 (ix2 p k) = a1 (ix2 r k)) :
    Ideal.logistic (∑ k : Fin 256, x0 (ix2 p k) * x1 (ix2 p k)) = Ideal.logistic (∑ k : Fin 256, a0 (ix2 r k) * a1 (ix2 r k)) := by
  refine congrArg Ideal.logistic (Finset.sum_congr rfl fun k _ => ?_)
  rw [h0 k, h1 k]

/-- The second layer's body at an entry. -/
theorem linear_body_apply (x0 x1 : Vec Ideal S2000x256 .f32) (x2 x4 : Vec Ideal S256x256 .f32) (x3 : Vec Ideal S1x256 .f32)
    (p : Fin 2000) (q : Fin 256) :
    k2_pay1 (F := Ideal) x0 x1 x2 x4 x3 (ix2 p q) = linEntry x0 x1 x2 x4 x3 p q := by
  unfold k2_pay1 linEntry
  simp only [shapeCast_self]
  rw [addf_apply, addf_apply]
  refine congrArg₂ (· + ·) (congrArg₂ (· + ·) ?_ ?_) ?_
  · exact Cert.PlainDot.matmul_zero_apply dot_S2000x256_S256x256_S2000x256_1_0_0_1_n_n rfl none _ _ p q
  · exact Cert.PlainDot.matmul_zero_apply dot_S2000x256_S256x256_S2000x256_1_0_0_1_n_n rfl none _ _ p q
  · exact broadcastTo_1b_ab_apply x3 _ p q

/-- The first layer's body at an entry: the same, clamped below at zero. -/
theorem clamped_body_apply (x0 x1 : Vec Ideal S2000x256 .f32) (x2 x4 : Vec Ideal S256x256 .f32) (x3 : Vec Ideal S1x256 .f32)
    (p : Fin 2000) (q : Fin 256) :
    k0_pay1 (F := Ideal) x0 x1 x2 x4 x3 (ix2 p q) = max (linEntry x0 x1 x2 x4 x3 p q) (Ideal.ofBits .f32 0x00000000#32) := by
  have h : k0_pay1 (F := Ideal) x0 x1 x2 x4 x3
      = maximumf (k2_pay1 (F := Ideal) x0 x1 x2 x4 x3) (broadcast S2000x256 (Scalar.ofBits (F := Ideal) .f32 0x00000000#32)) := rfl
  rw [h, maximumf_apply, linear_body_apply]
  rfl

/-- A first-layer block entry is the clamped layer's entry of the node it belongs to. -/
theorem clamped_block_entry (x0 x1 : Vec Ideal S2000x256 .f32) (x2 x4 : Vec Ideal S256x256 .f32) (x3 : Vec Ideal S1x256 .f32)
    (a0 a1 : Nodes.Idx → EReal) (a2 : Weights.Idx → EReal) (a3 : BiasRow.Idx → EReal) (a4 : Weights.Idx → EReal)
    (p : Fin 2000) (q : Fin 256) (r : Fin 100000)
    (h0 : ∀ k : Fin 256, x0 (ix2 p k) = a0 (ix2 r k)) (h1 : ∀ k : Fin 256, x1 (ix2 p k) = a1 (ix2 r k))
    (h2 : ∀ k : Fin 256, x2 (ix2 k q) = a2 (ix2 k q)) (h4 : ∀ k : Fin 256, x4 (ix2 k q) = a4 (ix2 k q))
    (h3 : x3 (ix2 (0 : Fin 1) q) = a3 (ix2 (0 : Fin 1) q)) :
    k0_pay1 (F := Ideal) x0 x1 x2 x4 x3 (ix2 p q) = layerClamped a0 a1 a2 a3 a4 (ix2 r q) :=
  (clamped_body_apply x0 x1 x2 x4 x3 p q).trans
    ((congrArg (max · (Ideal.ofBits .f32 0x00000000#32)) (entry_of_blocks x0 x1 x2 x4 x3 a0 a1 a2 a3 a4 p q r h0 h1 h2 h4 h3)).trans
      (layerClamped_ix2 a0 a1 a2 a3 a4 r q).symm)

/-- A second-layer block entry is the layer's entry of the node it belongs to. -/
theorem linear_block_entry (x0 x1 : Vec Ideal S2000x256 .f32) (x2 x4 : Vec Ideal S256x256 .f32) (x3 : Vec Ideal S1x256 .f32)
    (a0 a1 : Nodes.Idx → EReal) (a2 : Weights.Idx → EReal) (a3 : BiasRow.Idx → EReal) (a4 : Weights.Idx → EReal)
    (p : Fin 2000) (q : Fin 256) (r : Fin 100000)
    (h0 : ∀ k : Fin 256, x0 (ix2 p k) = a0 (ix2 r k)) (h1 : ∀ k : Fin 256, x1 (ix2 p k) = a1 (ix2 r k))
    (h2 : ∀ k : Fin 256, x2 (ix2 k q) = a2 (ix2 k q)) (h4 : ∀ k : Fin 256, x4 (ix2 k q) = a4 (ix2 k q))
    (h3 : x3 (ix2 (0 : Fin 1) q) = a3 (ix2 (0 : Fin 1) q)) :
    k2_pay1 (F := Ideal) x0 x1 x2 x4 x3 (ix2 p q) = layerLinear a0 a1 a2 a3 a4 (ix2 r q) :=
  (linear_body_apply x0 x1 x2 x4 x3 p q).trans
    ((entry_of_blocks x0 x1 x2 x4 x3 a0 a1 a2 a3 a4 p q r h0 h1 h2 h4 h3).trans (layerLinear_ix2 a0 a1 a2 a3 a4 r q).symm)

/-- The two first-layer bodies are one function, and so are the two second-layer bodies. -/
theorem k1_eq_k0 : @k1_pay1 Ideal _ = @k0_pay1 Ideal _ := rfl
theorem k3_eq_k2 : @k3_pay1 Ideal _ = @k2_pay1 Ideal _ := rfl

/-- The edge scorer's body at its entry of row p: the logistic function of the two rows' inner product. -/
theorem score_body_apply (x0 x1 : Vec Ideal S2000x256 .f32) (p : Fin 2000) (u : Fin 1) :
    k4_pay1 (F := Ideal) x0 x1 (ix2 p u) = Ideal.logistic (∑ k : Fin 256, x0 (ix2 p k) * x1 (ix2 p k)) := by
  unfold k4_pay1
  simp only [shapeCast_self]
  change Ideal.logistic _ = Ideal.logistic _
  refine congrArg Ideal.logistic ?_
  refine (Cert.GraphConv.Column.shapeCast_a_a1_apply _ _ p u).trans ?_
  exact Cert.LaneSum.sum_last2 (mulf x0 x1) 0x00000000#32 reduces_S2000x256_S2000 (.inl rfl) rfl p

/-- A scorer block entry is the score of the edge it belongs to. -/
theorem score_block_entry (x0 x1 : Vec Ideal S2000x256 .f32) (a0 a1 : Nodes.Idx → EReal) (p : Fin 2000) (u : Fin 1) (r : Fin 100000)
    (h0 : ∀ k : Fin 256, x0 (ix2 p k) = a0 (ix2 r k)) (h1 : ∀ k : Fin 256, x1 (ix2 p k) = a1 (ix2 r k)) :
    k4_pay1 (F := Ideal) x0 x1 (ix2 p u) = scoreOut a0 a1 (ix2 r u) :=
  (score_body_apply x0 x1 p u).trans ((score_of_blocks x0 x1 a0 a1 p r h0 h1).trans (scoreOut_ix2 a0 a1 r u).symm)

end Cert.LinkScore

end
-- ==== Proof.Region0.lean ====
/-
  Region 0: a first-layer linear stage, from its blocks to its whole output array.

  The grid has 50 points. Point t fetches rows 2000 t .. 2000 t + 1999 of the neighbour means and of the nodes' own
  features, the two weight matrices and the bias row whole, and writes back rows 2000 t .. 2000 t + 1999 of the output.
  What it writes at row p, column q of its block is the layer's entry for node 2000 t + p, because row p of each
  fetched block is row 2000 t + p of its array. The 50 blocks of 2000 rows tile the 100000 rows, node r lying in block
  r / 2000, so after the region the output array is the layer's whole-array function of the five arrays the region
  found at its entry.
-/
import proofs.«100248_j21938692948530_1_alg».proof.Proof.Gen.KernelIdeal.Frame
import proofs.«100248_j21938692948530_1_alg».proof.Proof.BodyValue
import proofs.«100248_j21938692948530_1_alg».proof.Proof.Spec
import Idealize.ShloMosaic.Lib.Pipeline.Value
import Idealize.ShloMosaic.Lib.ValueIdx

set_option maxRecDepth 16384

noncomputable section

namespace Cert.LinkScore.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LinkScore

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the row-blocked windows move with the point, the whole-array windows stay. -/
theorem index_maps : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of window 0's block at point t is row 2000 t + p of its array. -/
theorem emb0 (t : Fin cfg0.N) (p : Fin 2000) (k : Fin 256) (r : Fin 100000) (hr : r.val = t.val * 2000 + p.val) :
    ((cfg0.win 0).blk t).view.emb (ix2 p k) = ix2 r k := by
  obtain ⟨e00, e01, e10, e11, e20, e21, e30, e31, e40, e41, e50, e51⟩ := index_maps t
  funext a; apply Fin.ext
  match a with
  | ⟨0, _⟩ => show win0_0.index t (0 : Fin 2) * 2000 + 1 * p.val = r.val; omega
  | ⟨1, _⟩ => show win0_0.index t (1 : Fin 2) * 256 + 1 * k.val = k.val; omega

/-- Row p of window 1's block at point t is row 2000 t + p of its array. -/
theorem emb1 (t : Fin cfg0.N) (p : Fin 2000) (k : Fin 256) (r : Fin 100000) (hr : r.val = t.val * 2000 + p.val) :
    ((cfg0.win 1).blk t).view.emb (ix2 p k) = ix2 r k := by
  obtain ⟨e00, e01, e10, e11, e20, e21, e30, e31, e40, e41, e50, e51⟩ := index_maps t
  funext a; apply Fin.ext
  match a with
  | ⟨0, _⟩ => show win0_1.index t (0 : Fin 2) * 2000 + 1 * p.val = r.val; omega
  | ⟨1, _⟩ => show win0_1.index t (1 : Fin 2) * 256 + 1 * k.val = k.val; omega

/-- Window 2 is its whole array at every point. -/
theorem emb2 (t : Fin cfg0.N) (a0 : Fin 256) (a1 : Fin 256) :
    ((cfg0.win 2).blk t).view.emb (ix2 a0 a1) = ix2 a0 a1 := by
  obtain ⟨e00, e01, e10, e11, e20, e21, e30, e31, e40, e41, e50, e51⟩ := index_maps t
  funext a; apply Fin.ext
  match a with
  | ⟨0, _⟩ => show win0_2.index t (0 : Fin 2) * 256 + 1 * a0.val = a0.val; omega
  | ⟨1, _⟩ => show win0_2.index t (1 : Fin 2) * 256 + 1 * a1.val = a1.val; omega

/-- Window 3 is its whole array at every point. -/
theorem emb3 (t : Fin cfg0.N) (a0 : Fin 1) (a1 : Fin 256) :
    ((cfg0.win 3).blk t).view.emb (ix2 a0 a1) = ix2 a0 a1 := by
  obtain ⟨e00, e01, e10, e11, e20, e21, e30, e31, e40, e41, e50, e51⟩ := index_maps t
  funext a; apply Fin.ext
  match a with
  | ⟨0, _⟩ => show win0_3.index t (0 : Fin 2) * 1 + 1 * a0.val = a0.val; omega
  | ⟨1, _⟩ => show win0_3.index t (1 : Fin 2) * 256 + 1 * a1.val = a1.val; omega

/-- Window 4 is its whole array at every point. -/
theorem emb4 (t : Fin cfg0.N) (a0 : Fin 256) (a1 : Fin 256) :
    ((cfg0.win 4).blk t).view.emb (ix2 a0 a1) = ix2 a0 a1 := by
  obtain ⟨e00, e01, e10, e11, e20, e21, e30, e31, e40, e41, e50, e51⟩ := index_maps t
  funext a; apply Fin.ext
  match a with
  | ⟨0, _⟩ => show win0_4.index t (0 : Fin 2) * 256 + 1 * a0.val = a0.val; omega
  | ⟨1, _⟩ => show win0_4.index t (1 : Fin 2) * 256 + 1 * a1.val = a1.val; omega

/-- Row p of window 5's block at point t is row 2000 t + p of its array. -/
theorem emb5 (t : Fin cfg0.N) (p : Fin 2000) (k : Fin 256) (r : Fin 100000) (hr : r.val = t.val * 2000 + p.val) :
    ((cfg0.win 5).blk t).view.emb (ix2 p k) = ix2 r k := by
  obtain ⟨e00, e01, e10, e11, e20, e21, e30, e31, e40, e41, e50, e51⟩ := index_maps t
  funext a; apply Fin.ext
  match a with
  | ⟨0, _⟩ => show win0_5.index t (0 : Fin 2) * 2000 + 1 * p.val = r.val; omega
  | ⟨1, _⟩ => show win0_5.index t (1 : Fin 2) * 256 + 1 * k.val = k.val; omega

/-! Each fetched block read at an entry is its array read at the corresponding entry. -/

theorem read0 (c : Dev nD) (t : Fin cfg0.N) (p : Fin 2000) (k : Fin 256) (r : Fin 100000) (hr : r.val = t.val * 2000 + p.val) :
    iblk0 V c 0 t (ix2 p k) = (V c (Pipeline.arrRef spec0 0)) (ix2 r k) := by
  show (V c (Pipeline.arrRef spec0 0)) (((cfg0.win 0).blk t).view.emb (ix2 p k)) = _
  rw [emb0 t p k r hr]

theorem read1 (c : Dev nD) (t : Fin cfg0.N) (p : Fin 2000) (k : Fin 256) (r : Fin 100000) (hr : r.val = t.val * 2000 + p.val) :
    iblk0 V c 1 t (ix2 p k) = (V c (Pipeline.arrRef spec0 1)) (ix2 r k) := by
  show (V c (Pipeline.arrRef spec0 1)) (((cfg0.win 1).blk t).view.emb (ix2 p k)) = _
  rw [emb1 t p k r hr]

theorem read2 (c : Dev nD) (t : Fin cfg0.N) (a0 : Fin 256) (a1 : Fin 256) :
    iblk0 V c 2 t (ix2 a0 a1) = (V c (Pipeline.arrRef spec0 2)) (ix2 a0 a1) := by
  show (V c (Pipeline.arrRef spec0 2)) (((cfg0.win 2).blk t).view.emb (ix2 a0 a1)) = _
  rw [emb2 t a0 a1]

theorem read3 (c : Dev nD) (t : Fin cfg0.N) (a0 : Fin 1) (a1 : Fin 256) :
    iblk0 V c 3 t (ix2 a0 a1) = (V c (Pipeline.arrRef spec0 3)) (ix2 a0 a1) := by
  show (V c (Pipeline.arrRef spec0 3)) (((cfg0.win 3).blk t).view.emb (ix2 a0 a1)) = _
  rw [emb3 t a0 a1]

theorem read4 (c : Dev nD) (t : Fin cfg0.N) (a0 : Fin 256) (a1 : Fin 256) :
    iblk0 V c 4 t (ix2 a0 a1) = (V c (Pipeline.arrRef spec0 4)) (ix2 a0 a1) := by
  show (V c (Pipeline.arrRef spec0 4)) (((cfg0.win 4).blk t).view.emb (ix2 a0 a1)) = _
  rw [emb4 t a0 a1]

set_option maxHeartbeats 4000000 in
/-- What point t writes back is block t of the layer's whole-array function of the region's five input arrays. -/
theorem flushed_eq (c : Dev nD) (t : Fin cfg0.N) :
    (dat0 V c).flushed 5 t = ((cfg0.win 5).blk t).view.read (Elt Ideal)
      (layerClamped (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 V c).after 5 t) = _
  rw [after0_5]
  unfold out0_5
  rw [View.canon_unit_zero origin]
  simp only [View.ld_unit_zero (S := S2000x256) origin, View.ld_unit_zero (S := S256x256) origin,
    View.ld_unit_zero (S := S1x256) origin]
  funext j
  obtain ⟨p, q, rfl⟩ : ∃ (p : Fin 2000) (q : Fin 256), j = ix2 p q := ⟨j 0, j 1, eq_ix2 j⟩
  have ht : t.val < 50 := t.isLt
  have hp : p.val < 2000 := p.isLt
  have hlt : t.val * 2000 + p.val < 100000 := by omega
  obtain ⟨r, hr⟩ : ∃ r : Fin 100000, r.val = t.val * 2000 + p.val := ⟨⟨t.val * 2000 + p.val, hlt⟩, rfl⟩
  show k0_pay1 (F := Ideal) (iblk0 V c 0 t) (iblk0 V c 1 t) (iblk0 V c 2 t) (iblk0 V c 4 t) (iblk0 V c 3 t) (ix2 p q)
    = layerClamped (V c (Pipeline.arrRef spec0 0)) (V c (Pipeline.arrRef spec0 1)) (V c (Pipeline.arrRef spec0 2)) (V c (Pipeline.arrRef spec0 3)) (V c (Pipeline.arrRef spec0 4)) (((cfg0.win 5).blk t).view.emb (ix2 p q))
  rw [emb5 t p q r hr]
  exact clamped_block_entry (iblk0 V c 0 t) (iblk0 V c 1 t) (iblk0 V c 2 t) (iblk0 V c 4 t) (iblk0 V c 3 t) (V c (Pipeline.arrRef spec0 0)) (V c (Pipeline.arrRef spec0 1)) (V c (Pipeline.arrRef spec0 2)) (V c (Pipeline.arrRef spec0 3)) (V c (Pipeline.arrRef spec0 4)) p q r
    (fun k => read0 V c t p k r hr) (fun k => read1 V c t p k r hr)
    (fun k => read2 V c t k q) (fun k => read4 V c t k q) (read3 V c t (0 : Fin 1) q)

/-- An index of the output array is in point t's block iff each coordinate is in the block's range on its axis. -/
theorem mem_blk (t : Fin cfg0.N) (i : S100000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v74).slice (win0_5.rect t)).set ↔ _
  rw [View.set_slice_whole, Rect.mem_set_unit]
  exact Iff.rfl

/-- Every node's row is in some point's block: node r in block r / 2000. -/
theorem cover (i : S100000x256.Idx) :
    ∃ t : Fin cfg0.N, (cfg0.win 5).flush t = true ∧ i ∈ ((cfg0.win 5).blk t).view.set := by
  have h0 : (i 0).val < 100000 := (i 0).isLt
  have h1 : (i 1).val < 256 := (i 1).isLt
  have hq : (i 0).val / 2000 < 50 := by omega
  obtain ⟨-, -, -, -, -, -, -, -, -, -, e50, e51⟩ := index_maps (⟨(i 0).val / 2000, hq⟩ : Fin cfg0.N)
  have e50' : win0_5.index (⟨(i 0).val / 2000, hq⟩ : Fin cfg0.N) (0 : Fin 2) = (i 0).val / 2000 := e50
  refine ⟨⟨(i 0).val / 2000, hq⟩, flush0_5 _, ?_⟩
  rw [mem_blk]
  intro a
  match a with
  | ⟨0, _⟩ =>
    show win0_5.index (⟨(i 0).val / 2000, hq⟩ : Fin cfg0.N) (0 : Fin 2) * 2000 ≤ (i 0).val ∧ (i 0).val < win0_5.index (⟨(i 0).val / 2000, hq⟩ : Fin cfg0.N) (0 : Fin 2) * 2000 + 2000
    omega
  | ⟨1, _⟩ =>
    show win0_5.index (⟨(i 0).val / 2000, hq⟩ : Fin cfg0.N) (1 : Fin 2) * 256 ≤ (i 1).val ∧ (i 1).val < win0_5.index (⟨(i 0).val / 2000, hq⟩ : Fin cfg0.N) (1 : Fin 2) * 256 + 256
    omega

/-- After the region, its output array is the layer's whole-array function of its five input arrays. -/
theorem out_array (c : Dev nD) :
    (dat0 V c).arrAt 5 cfg0.N = layerClamped (V c (Pipeline.arrRef spec0 0)) (V c (Pipeline.arrRef spec0 1)) (V c (Pipeline.arrRef spec0 2)) (V c (Pipeline.arrRef spec0 3)) (V c (Pipeline.arrRef spec0 4)) :=
  (dat0 V c).arrAt_eq_of_cover 5 _ (fun t _ => flushed_eq V c t) (cover)

end Cert.LinkScore.Region0

end
-- ==== Proof.Region1.lean ====
/-
  Region 1: a first-layer linear stage, from its blocks to its whole output array.

  The grid has 50 points. Point t fetches rows 2000 t .. 2000 t + 1999 of the neighbour means and of the nodes' own
  features, the two weight matrices and the bias row whole, and writes back rows 2000 t .. 2000 t + 1999 of the output.
  What it writes at row p, column q of its block is the layer's entry for node 2000 t + p, because row p of each
  fetched block is row 2000 t + p of its array. The 50 blocks of 2000 rows tile the 100000 rows, node r lying in block
  r / 2000, so after the region the output array is the layer's whole-array function of the five arrays the region
  found at its entry.
-/
import proofs.«100248_j21938692948530_1_alg».proof.Proof.Gen.KernelIdeal.Frame
import proofs.«100248_j21938692948530_1_alg».proof.Proof.BodyValue
import proofs.«100248_j21938692948530_1_alg».proof.Proof.Spec
import Idealize.ShloMosaic.Lib.Pipeline.Value
import Idealize.ShloMosaic.Lib.ValueIdx

set_option maxRecDepth 16384

noncomputable section

namespace Cert.LinkScore.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LinkScore

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the row-blocked windows move with the point, the whole-array windows stay. -/
theorem index_maps : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of window 0's block at point t is row 2000 t + p of its array. -/
theorem emb0 (t : Fin cfg1.N) (p : Fin 2000) (k : Fin 256) (r : Fin 100000) (hr : r.val = t.val * 2000 + p.val) :
    ((cfg1.win 0).blk t).view.emb (ix2 p k) = ix2 r k := by
  obtain ⟨e00, e01, e10, e11, e20, e21, e30, e31, e40, e41, e50, e51⟩ := index_maps t
  funext a; apply Fin.ext
  match a with
  | ⟨0, _⟩ => show win1_0.index t (0 : Fin 2) * 2000 + 1 * p.val = r.val; omega
  | ⟨1, _⟩ => show win1_0.index t (1 : Fin 2) * 256 + 1 * k.val = k.val; omega

/-- Row p of window 1's block at point t is row 2000 t + p of its array. -/
theorem emb1 (t : Fin cfg1.N) (p : Fin 2000) (k : Fin 256) (r : Fin 100000) (hr : r.val = t.val * 2000 + p.val) :
    ((cfg1.win 1).blk t).view.emb (ix2 p k) = ix2 r k := by
  obtain ⟨e00, e01, e10, e11, e20, e21, e30, e31, e40, e41, e50, e51⟩ := index_maps t
  funext a; apply Fin.ext
  match a with
  | ⟨0, _⟩ => show win1_1.index t (0 : Fin 2) * 2000 + 1 * p.val = r.val; omega
  | ⟨1, _⟩ => show win1_1.index t (1 : Fin 2) * 256 + 1 * k.val = k.val; omega

/-- Window 2 is its whole array at every point. -/
theorem emb2 (t : Fin cfg1.N) (a0 : Fin 256) (a1 : Fin 256) :
    ((cfg1.win 2).blk t).view.emb (ix2 a0 a1) = ix2 a0 a1 := by
  obtain ⟨e00, e01, e10, e11, e20, e21, e30, e31, e40, e41, e50, e51⟩ := index_maps t
  funext a; apply Fin.ext
  match a with
  | ⟨0, _⟩ => show win1_2.index t (0 : Fin 2) * 256 + 1 * a0.val = a0.val; omega
  | ⟨1, _⟩ => show win1_2.index t (1 : Fin 2) * 256 + 1 * a1.val = a1.val; omega

/-- Window 3 is its whole array at every point. -/
theorem emb3 (t : Fin cfg1.N) (a0 : Fin 1) (a1 : Fin 256) :
    ((cfg1.win 3).blk t).view.emb (ix2 a0 a1) = ix2 a0 a1 := by
  obtain ⟨e00, e01, e10, e11, e20, e21, e30, e31, e40, e41, e50, e51⟩ := index_maps t
  funext a; apply Fin.ext
  match a with
  | ⟨0, _⟩ => show win1_3.index t (0 : Fin 2) * 1 + 1 * a0.val = a0.val; omega
  | ⟨1, _⟩ => show win1_3.index t (1 : Fin 2) * 256 + 1 * a1.val = a1.val; omega

/-- Window 4 is its whole array at every point. -/
theorem emb4 (t : Fin cfg1.N) (a0 : Fin 256) (a1 : Fin 256) :
    ((cfg1.win 4).blk t).view.emb (ix2 a0 a1) = ix2 a0 a1 := by
  obtain ⟨e00, e01, e10, e11, e20, e21, e30, e31, e40, e41, e50, e51⟩ := index_maps t
  funext a; apply Fin.ext
  match a with
  | ⟨0, _⟩ => show win1_4.index t (0 : Fin 2) * 256 + 1 * a0.val = a0.val; omega
  | ⟨1, _⟩ => show win1_4.index t (1 : Fin 2) * 256 + 1 * a1.val = a1.val; omega

/-- Row p of window 5's block at point t is row 2000 t + p of its array. -/
theorem emb5 (t : Fin cfg1.N) (p : Fin 2000) (k : Fin 256) (r : Fin 100000) (hr : r.val = t.val * 2000 + p.val) :
    ((cfg1.win 5).blk t).view.emb (ix2 p k) = ix2 r k := by
  obtain ⟨e00, e01, e10, e11, e20, e21, e30, e31, e40, e41, e50, e51⟩ := index_maps t
  funext a; apply Fin.ext
  match a with
  | ⟨0, _⟩ => show win1_5.index t (0 : Fin 2) * 2000 + 1 * p.val = r.val; omega
  | ⟨1, _⟩ => show win1_5.index t (1 : Fin 2) * 256 + 1 * k.val = k.val; omega

/-! Each fetched block read at an entry is its array read at the corresponding entry. -/

theorem read0 (c : Dev nD) (t : Fin cfg1.N) (p : Fin 2000) (k : Fin 256) (r : Fin 100000) (hr : r.val = t.val * 2000 + p.val) :
    iblk1 V c 0 t (ix2 p k) = (V c (Pipeline.arrRef spec1 0)) (ix2 r k) := by
  show (V c (Pipeline.arrRef spec1 0)) (((cfg1.win 0).blk t).view.emb (ix2 p k)) = _
  rw [emb0 t p k r hr]

theorem read1 (c : Dev nD) (t : Fin cfg1.N) (p : Fin 2000) (k : Fin 256) (r : Fin 100000) (hr : r.val = t.val * 2000 + p.val) :
    iblk1 V c 1 t (ix2 p k) = (V c (Pipeline.arrRef spec1 1)) (ix2 r k) := by
  show (V c (Pipeline.arrRef spec1 1)) (((cfg1.win 1).blk t).view.emb (ix2 p k)) = _
  rw [emb1 t p k r hr]

theorem read2 (c : Dev nD) (t : Fin cfg1.N) (a0 : Fin 256) (a1 : Fin 256) :
    iblk1 V c 2 t (ix2 a0 a1) = (V c (Pipeline.arrRef spec1 2)) (ix2 a0 a1) := by
  show (V c (Pipeline.arrRef spec1 2)) (((cfg1.win 2).blk t).view.emb (ix2 a0 a1)) = _
  rw [emb2 t a0 a1]

theorem read3 (c : Dev nD) (t : Fin cfg1.N) (a0 : Fin 1) (a1 : Fin 256) :
    iblk1 V c 3 t (ix2 a0 a1) = (V c (Pipeline.arrRef spec1 3)) (ix2 a0 a1) := by
  show (V c (Pipeline.arrRef spec1 3)) (((cfg1.win 3).blk t).view.emb (ix2 a0 a1)) = _
  rw [emb3 t a0 a1]

theorem read4 (c : Dev nD) (t : Fin cfg1.N) (a0 : Fin 256) (a1 : Fin 256) :
    iblk1 V c 4 t (ix2 a0 a1) = (V c (Pipeline.arrRef spec1 4)) (ix2 a0 a1) := by
  show (V c (Pipeline.arrRef spec1 4)) (((cfg1.win 4).blk t).view.emb (ix2 a0 a1)) = _
  rw [emb4 t a0 a1]

set_option maxHeartbeats 4000000 in
/-- What point t writes back is block t of the layer's whole-array function of the region's five input arrays. -/
theorem flushed_eq (c : Dev nD) (t : Fin cfg1.N) :
    (dat1 V c).flushed 5 t = ((cfg1.win 5).blk t).view.read (Elt Ideal)
      (layerClamped (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero origin]
  simp only [View.ld_unit_zero (S := S2000x256) origin, View.ld_unit_zero (S := S256x256) origin,
    View.ld_unit_zero (S := S1x256) origin]
  rw [show @k1_pay1 Ideal _ = @k0_pay1 Ideal _ from rfl]
  funext j
  obtain ⟨p, q, rfl⟩ : ∃ (p : Fin 2000) (q : Fin 256), j = ix2 p q := ⟨j 0, j 1, eq_ix2 j⟩
  have ht : t.val < 50 := t.isLt
  have hp : p.val < 2000 := p.isLt
  have hlt : t.val * 2000 + p.val < 100000 := by omega
  obtain ⟨r, hr⟩ : ∃ r : Fin 100000, r.val = t.val * 2000 + p.val := ⟨⟨t.val * 2000 + p.val, hlt⟩, rfl⟩
  show k0_pay1 (F := Ideal) (iblk1 V c 0 t) (iblk1 V c 1 t) (iblk1 V c 2 t) (iblk1 V c 4 t) (iblk1 V c 3 t) (ix2 p q)
    = layerClamped (V c (Pipeline.arrRef spec1 0)) (V c (Pipeline.arrRef spec1 1)) (V c (Pipeline.arrRef spec1 2)) (V c (Pipeline.arrRef spec1 3)) (V c (Pipeline.arrRef spec1 4)) (((cfg1.win 5).blk t).view.emb (ix2 p q))
  rw [emb5 t p q r hr]
  exact clamped_block_entry (iblk1 V c 0 t) (iblk1 V c 1 t) (iblk1 V c 2 t) (iblk1 V c 4 t) (iblk1 V c 3 t) (V c (Pipeline.arrRef spec1 0)) (V c (Pipeline.arrRef spec1 1)) (V c (Pipeline.arrRef spec1 2)) (V c (Pipeline.arrRef spec1 3)) (V c (Pipeline.arrRef spec1 4)) p q r
    (fun k => read0 V c t p k r hr) (fun k => read1 V c t p k r hr)
    (fun k => read2 V c t k q) (fun k => read4 V c t k q) (read3 V c t (0 : Fin 1) q)

/-- An index of the output array is in point t's block iff each coordinate is in the block's range on its axis. -/
theorem mem_blk (t : Fin cfg1.N) (i : S100000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v78).slice (win1_5.rect t)).set ↔ _
  rw [View.set_slice_whole, Rect.mem_set_unit]
  exact Iff.rfl

/-- Every node's row is in some point's block: node r in block r / 2000. -/
theorem cover (i : S100000x256.Idx) :
    ∃ t : Fin cfg1.N, (cfg1.win 5).flush t = true ∧ i ∈ ((cfg1.win 5).blk t).view.set := by
  have h0 : (i 0).val < 100000 := (i 0).isLt
  have h1 : (i 1).val < 256 := (i 1).isLt
  have hq : (i 0).val / 2000 < 50 := by omega
  obtain ⟨-, -, -, -, -, -, -, -, -, -, e50, e51⟩ := index_maps (⟨(i 0).val / 2000, hq⟩ : Fin cfg1.N)
  have e50' : win1_5.index (⟨(i 0).val / 2000, hq⟩ : Fin cfg1.N) (0 : Fin 2) = (i 0).val / 2000 := e50
  refine ⟨⟨(i 0).val / 2000, hq⟩, flush1_5 _, ?_⟩
  rw [mem_blk]
  intro a
  match a with
  | ⟨0, _⟩ =>
    show win1_5.index (⟨(i 0).val / 2000, hq⟩ : Fin cfg1.N) (0 : Fin 2) * 2000 ≤ (i 0).val ∧ (i 0).val < win1_5.index (⟨(i 0).val / 2000, hq⟩ : Fin cfg1.N) (0 : Fin 2) * 2000 + 2000
    omega
  | ⟨1, _⟩ =>
    show win1_5.index (⟨(i 0).val / 2000, hq⟩ : Fin cfg1.N) (1 : Fin 2) * 256 ≤ (i 1).val ∧ (i 1).val < win1_5.index (⟨(i 0).val / 2000, hq⟩ : Fin cfg1.N) (1 : Fin 2) * 256 + 256
    omega

/-- After the region, its output array is the layer's whole-array function of its five input arrays. -/
theorem out_array (c : Dev nD) :
    (dat1 V c).arrAt 5 cfg1.N = layerClamped (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed_eq V c t) (cover)

end Cert.LinkScore.Region1

end
-- ==== Proof.Region2.lean ====
/-
  Region 2: a second-layer linear stage, from its blocks to its whole output array.

  The grid has 50 points. Point t fetches rows 2000 t .. 2000 t + 1999 of the neighbour means and of the nodes' own
  features, the two weight matrices and the bias row whole, and writes back rows 2000 t .. 2000 t + 1999 of the output.
  What it writes at row p, column q of its block is the layer's entry for node 2000 t + p, because row p of each
  fetched block is row 2000 t + p of its array. The 50 blocks of 2000 rows tile the 100000 rows, node r lying in block
  r / 2000, so after the region the output array is the layer's whole-array function of the five arrays the region
  found at its entry.
-/
import proofs.«100248_j21938692948530_1_alg».proof.Proof.Gen.KernelIdeal.Frame
import proofs.«100248_j21938692948530_1_alg».proof.Proof.BodyValue
import proofs.«100248_j21938692948530_1_alg».proof.Proof.Spec
import Idealize.ShloMosaic.Lib.Pipeline.Value
import Idealize.ShloMosaic.Lib.ValueIdx

set_option maxRecDepth 16384

noncomputable section

namespace Cert.LinkScore.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LinkScore

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the row-blocked windows move with the point, the whole-array windows stay. -/
theorem index_maps : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of window 0's block at point t is row 2000 t + p of its array. -/
theorem emb0 (t : Fin cfg2.N) (p : Fin 2000) (k : Fin 256) (r : Fin 100000) (hr : r.val = t.val * 2000 + p.val) :
    ((cfg2.win 0).blk t).view.emb (ix2 p k) = ix2 r k := by
  obtain ⟨e00, e01, e10, e11, e20, e21, e30, e31, e40, e41, e50, e51⟩ := index_maps t
  funext a; apply Fin.ext
  match a with
  | ⟨0, _⟩ => show win2_0.index t (0 : Fin 2) * 2000 + 1 * p.val = r.val; omega
  | ⟨1, _⟩ => show win2_0.index t (1 : Fin 2) * 256 + 1 * k.val = k.val; omega

/-- Row p of window 1's block at point t is row 2000 t + p of its array. -/
theorem emb1 (t : Fin cfg2.N) (p : Fin 2000) (k : Fin 256) (r : Fin 100000) (hr : r.val = t.val * 2000 + p.val) :
    ((cfg2.win 1).blk t).view.emb (ix2 p k) = ix2 r k := by
  obtain ⟨e00, e01, e10, e11, e20, e21, e30, e31, e40, e41, e50, e51⟩ := index_maps t
  funext a; apply Fin.ext
  match a with
  | ⟨0, _⟩ => show win2_1.index t (0 : Fin 2) * 2000 + 1 * p.val = r.val; omega
  | ⟨1, _⟩ => show win2_1.index t (1 : Fin 2) * 256 + 1 * k.val = k.val; omega

/-- Window 2 is its whole array at every point. -/
theorem emb2 (t : Fin cfg2.N) (a0 : Fin 256) (a1 : Fin 256) :
    ((cfg2.win 2).blk t).view.emb (ix2 a0 a1) = ix2 a0 a1 := by
  obtain ⟨e00, e01, e10, e11, e20, e21, e30, e31, e40, e41, e50, e51⟩ := index_maps t
  funext a; apply Fin.ext
  match a with
  | ⟨0, _⟩ => show win2_2.index t (0 : Fin 2) * 256 + 1 * a0.val = a0.val; omega
  | ⟨1, _⟩ => show win2_2.index t (1 : Fin 2) * 256 + 1 * a1.val = a1.val; omega

/-- Window 3 is its whole array at every point. -/
theorem emb3 (t : Fin cfg2.N) (a0 : Fin 1) (a1 : Fin 256) :
    ((cfg2.win 3).blk t).view.emb (ix2 a0 a1) = ix2 a0 a1 := by
  obtain ⟨e00, e01, e10, e11, e20, e21, e30, e31, e40, e41, e50, e51⟩ := index_maps t
  funext a; apply Fin.ext
  match a with
  | ⟨0, _⟩ => show win2_3.index t (0 : Fin 2) * 1 + 1 * a0.val = a0.val; omega
  | ⟨1, _⟩ => show win2_3.index t (1 : Fin 2) * 256 + 1 * a1.val = a1.val; omega

/-- Window 4 is its whole array at every point. -/
theorem emb4 (t : Fin cfg2.N) (a0 : Fin 256) (a1 : Fin 256) :
    ((cfg2.win 4).blk t).view.emb (ix2 a0 a1) = ix2 a0 a1 := by
  obtain ⟨e00, e01, e10, e11, e20, e21, e30, e31, e40, e41, e50, e51⟩ := index_maps t
  funext a; apply Fin.ext
  match a with
  | ⟨0, _⟩ => show win2_4.index t (0 : Fin 2) * 256 + 1 * a0.val = a0.val; omega
  | ⟨1, _⟩ => show win2_4.index t (1 : Fin 2) * 256 + 1 * a1.val = a1.val; omega

/-- Row p of window 5's block at point t is row 2000 t + p of its array. -/
theorem emb5 (t : Fin cfg2.N) (p : Fin 2000) (k : Fin 256) (r : Fin 100000) (hr : r.val = t.val * 2000 + p.val) :
    ((cfg2.win 5).blk t).view.emb (ix2 p k) = ix2 r k := by
  obtain ⟨e00, e01, e10, e11, e20, e21, e30, e31, e40, e41, e50, e51⟩ := index_maps t
  funext a; apply Fin.ext
  match a with
  | ⟨0, _⟩ => show win2_5.index t (0 : Fin 2) * 2000 + 1 * p.val = r.val; omega
  | ⟨1, _⟩ => show win2_5.index t (1 : Fin 2) * 256 + 1 * k.val = k.val; omega

/-! Each fetched block read at an entry is its array read at the corresponding entry. -/

theorem read0 (c : Dev nD) (t : Fin cfg2.N) (p : Fin 2000) (k : Fin 256) (r : Fin 100000) (hr : r.val = t.val * 2000 + p.val) :
    iblk2 V c 0 t (ix2 p k) = (V c (Pipeline.arrRef spec2 0)) (ix2 r k) := by
  show (V c (Pipeline.arrRef spec2 0)) (((cfg2.win 0).blk t).view.emb (ix2 p k)) = _
  rw [emb0 t p k r hr]

theorem read1 (c : Dev nD) (t : Fin cfg2.N) (p : Fin 2000) (k : Fin 256) (r : Fin 100000) (hr : r.val = t.val * 2000 + p.val) :
    iblk2 V c 1 t (ix2 p k) = (V c (Pipeline.arrRef spec2 1)) (ix2 r k) := by
  show (V c (Pipeline.arrRef spec2 1)) (((cfg2.win 1).blk t).view.emb (ix2 p k)) = _
  rw [emb1 t p k r hr]

theorem read2 (c : Dev nD) (t : Fin cfg2.N) (a0 : Fin 256) (a1 : Fin 256) :
    iblk2 V c 2 t (ix2 a0 a1) = (V c (Pipeline.arrRef spec2 2)) (ix2 a0 a1) := by
  show (V c (Pipeline.arrRef spec2 2)) (((cfg2.win 2).blk t).view.emb (ix2 a0 a1)) = _
  rw [emb2 t a0 a1]

theorem read3 (c : Dev nD) (t : Fin cfg2.N) (a0 : Fin 1) (a1 : Fin 256) :
    iblk2 V c 3 t (ix2 a0 a1) = (V c (Pipeline.arrRef spec2 3)) (ix2 a0 a1) := by
  show (V c (Pipeline.arrRef spec2 3)) (((cfg2.win 3).blk t).view.emb (ix2 a0 a1)) = _
  rw [emb3 t a0 a1]

theorem read4 (c : Dev nD) (t : Fin cfg2.N) (a0 : Fin 256) (a1 : Fin 256) :
    iblk2 V c 4 t (ix2 a0 a1) = (V c (Pipeline.arrRef spec2 4)) (ix2 a0 a1) := by
  show (V c (Pipeline.arrRef spec2 4)) (((cfg2.win 4).blk t).view.emb (ix2 a0 a1)) = _
  rw [emb4 t a0 a1]

set_option maxHeartbeats 4000000 in
/-- What point t writes back is block t of the layer's whole-array function of the region's five input arrays. -/
theorem flushed_eq (c : Dev nD) (t : Fin cfg2.N) :
    (dat2 V c).flushed 5 t = ((cfg2.win 5).blk t).view.read (Elt Ideal)
      (layerLinear (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero origin]
  simp only [View.ld_unit_zero (S := S2000x256) origin, View.ld_unit_zero (S := S256x256) origin,
    View.ld_unit_zero (S := S1x256) origin]
  funext j
  obtain ⟨p, q, rfl⟩ : ∃ (p : Fin 2000) (q : Fin 256), j = ix2 p q := ⟨j 0, j 1, eq_ix2 j⟩
  have ht : t.val < 50 := t.isLt
  have hp : p.val < 2000 := p.isLt
  have hlt : t.val * 2000 + p.val < 100000 := by omega
  obtain ⟨r, hr⟩ : ∃ r : Fin 100000, r.val = t.val * 2000 + p.val := ⟨⟨t.val * 2000 + p.val, hlt⟩, rfl⟩
  show k2_pay1 (F := Ideal) (iblk2 V c 0 t) (iblk2 V c 1 t) (iblk2 V c 2 t) (iblk2 V c 4 t) (iblk2 V c 3 t) (ix2 p q)
    = layerLinear (V c (Pipeline.arrRef spec2 0)) (V c (Pipeline.arrRef spec2 1)) (V c (Pipeline.arrRef spec2 2)) (V c (Pipeline.arrRef spec2 3)) (V c (Pipeline.arrRef spec2 4)) (((cfg2.win 5).blk t).view.emb (ix2 p q))
  rw [emb5 t p q r hr]
  exact linear_block_entry (iblk2 V c 0 t) (iblk2 V c 1 t) (iblk2 V c 2 t) (iblk2 V c 4 t) (iblk2 V c 3 t) (V c (Pipeline.arrRef spec2 0)) (V c (Pipeline.arrRef spec2 1)) (V c (Pipeline.arrRef spec2 2)) (V c (Pipeline.arrRef spec2 3)) (V c (Pipeline.arrRef spec2 4)) p q r
    (fun k => read0 V c t p k r hr) (fun k => read1 V c t p k r hr)
    (fun k => read2 V c t k q) (fun k => read4 V c t k q) (read3 V c t (0 : Fin 1) q)

/-- An index of the output array is in point t's block iff each coordinate is in the block's range on its axis. -/
theorem mem_blk (t : Fin cfg2.N) (i : S100000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v120).slice (win2_5.rect t)).set ↔ _
  rw [View.set_slice_whole, Rect.mem_set_unit]
  exact Iff.rfl

/-- Every node's row is in some point's block: node r in block r / 2000. -/
theorem cover (i : S100000x256.Idx) :
    ∃ t : Fin cfg2.N, (cfg2.win 5).flush t = true ∧ i ∈ ((cfg2.win 5).blk t).view.set := by
  have h0 : (i 0).val < 100000 := (i 0).isLt
  have h1 : (i 1).val < 256 := (i 1).isLt
  have hq : (i 0).val / 2000 < 50 := by omega
  obtain ⟨-, -, -, -, -, -, -, -, -, -, e50, e51⟩ := index_maps (⟨(i 0).val / 2000, hq⟩ : Fin cfg2.N)
  have e50' : win2_5.index (⟨(i 0).val / 2000, hq⟩ : Fin cfg2.N) (0 : Fin 2) = (i 0).val / 2000 := e50
  refine ⟨⟨(i 0).val / 2000, hq⟩, flush2_5 _, ?_⟩
  rw [mem_blk]
  intro a
  match a with
  | ⟨0, _⟩ =>
    show win2_5.index (⟨(i 0).val / 2000, hq⟩ : Fin cfg2.N) (0 : Fin 2) * 2000 ≤ (i 0).val ∧ (i 0).val < win2_5.index (⟨(i 0).val / 2000, hq⟩ : Fin cfg2.N) (0 : Fin 2) * 2000 + 2000
    omega
  | ⟨1, _⟩ =>
    show win2_5.index (⟨(i 0).val / 2000, hq⟩ : Fin cfg2.N) (1 : Fin 2) * 256 ≤ (i 1).val ∧ (i 1).val < win2_5.index (⟨(i 0).val / 2000, hq⟩ : Fin cfg2.N) (1 : Fin 2) * 256 + 256
    omega

/-- After the region, its output array is the layer's whole-array function of its five input arrays. -/
theorem out_array (c : Dev nD) :
    (dat2 V c).arrAt 5 cfg2.N = layerLinear (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 5 _ (fun t _ => flushed_eq V c t) (cover)

end Cert.LinkScore.Region2

end
-- ==== Proof.Region3.lean ====
/-
  Region 3: a second-layer linear stage, from its blocks to its whole output array.

  The grid has 50 points. Point t fetches rows 2000 t .. 2000 t + 1999 of the neighbour means and of the nodes' own
  features, the two weight matrices and the bias row whole, and writes back rows 2000 t .. 2000 t + 1999 of the output.
  What it writes at row p, column q of its block is the layer's entry for node 2000 t + p, because row p of each
  fetched block is row 2000 t + p of its array. The 50 blocks of 2000 rows tile the 100000 rows, node r lying in block
  r / 2000, so after the region the output array is the layer's whole-array function of the five arrays the region
  found at its entry.
-/
import proofs.«100248_j21938692948530_1_alg».proof.Proof.Gen.KernelIdeal.Frame
import proofs.«100248_j21938692948530_1_alg».proof.Proof.BodyValue
import proofs.«100248_j21938692948530_1_alg».proof.Proof.Spec
import Idealize.ShloMosaic.Lib.Pipeline.Value
import Idealize.ShloMosaic.Lib.ValueIdx

set_option maxRecDepth 16384

noncomputable section

namespace Cert.LinkScore.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LinkScore

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the row-blocked windows move with the point, the whole-array windows stay. -/
theorem index_maps : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of window 0's block at point t is row 2000 t + p of its array. -/
theorem emb0 (t : Fin cfg3.N) (p : Fin 2000) (k : Fin 256) (r : Fin 100000) (hr : r.val = t.val * 2000 + p.val) :
    ((cfg3.win 0).blk t).view.emb (ix2 p k) = ix2 r k := by
  obtain ⟨e00, e01, e10, e11, e20, e21, e30, e31, e40, e41, e50, e51⟩ := index_maps t
  funext a; apply Fin.ext
  match a with
  | ⟨0, _⟩ => show win3_0.index t (0 : Fin 2) * 2000 + 1 * p.val = r.val; omega
  | ⟨1, _⟩ => show win3_0.index t (1 : Fin 2) * 256 + 1 * k.val = k.val; omega

/-- Row p of window 1's block at point t is row 2000 t + p of its array. -/
theorem emb1 (t : Fin cfg3.N) (p : Fin 2000) (k : Fin 256) (r : Fin 100000) (hr : r.val = t.val * 2000 + p.val) :
    ((cfg3.win 1).blk t).view.emb (ix2 p k) = ix2 r k := by
  obtain ⟨e00, e01, e10, e11, e20, e21, e30, e31, e40, e41, e50, e51⟩ := index_maps t
  funext a; apply Fin.ext
  match a with
  | ⟨0, _⟩ => show win3_1.index t (0 : Fin 2) * 2000 + 1 * p.val = r.val; omega
  | ⟨1, _⟩ => show win3_1.index t (1 : Fin 2) * 256 + 1 * k.val = k.val; omega

/-- Window 2 is its whole array at every point. -/
theorem emb2 (t : Fin cfg3.N) (a0 : Fin 256) (a1 : Fin 256) :
    ((cfg3.win 2).blk t).view.emb (ix2 a0 a1) = ix2 a0 a1 := by
  obtain ⟨e00, e01, e10, e11, e20, e21, e30, e31, e40, e41, e50, e51⟩ := index_maps t
  funext a; apply Fin.ext
  match a with
  | ⟨0, _⟩ => show win3_2.index t (0 : Fin 2) * 256 + 1 * a0.val = a0.val; omega
  | ⟨1, _⟩ => show win3_2.index t (1 : Fin 2) * 256 + 1 * a1.val = a1.val; omega

/-- Window 3 is its whole array at every point. -/
theorem emb3 (t : Fin cfg3.N) (a0 : Fin 1) (a1 : Fin 256) :
    ((cfg3.win 3).blk t).view.emb (ix2 a0 a1) = ix2 a0 a1 := by
  obtain ⟨e00, e01, e10, e11, e20, e21, e30, e31, e40, e41, e50, e51⟩ := index_maps t
  funext a; apply Fin.ext
  match a with
  | ⟨0, _⟩ => show win3_3.index t (0 : Fin 2) * 1 + 1 * a0.val = a0.val; omega
  | ⟨1, _⟩ => show win3_3.index t (1 : Fin 2) * 256 + 1 * a1.val = a1.val; omega

/-- Window 4 is its whole array at every point. -/
theorem emb4 (t : Fin cfg3.N) (a0 : Fin 256) (a1 : Fin 256) :
    ((cfg3.win 4).blk t).view.emb (ix2 a0 a1) = ix2 a0 a1 := by
  obtain ⟨e00, e01, e10, e11, e20, e21, e30, e31, e40, e41, e50, e51⟩ := index_maps t
  funext a; apply Fin.ext
  match a with
  | ⟨0, _⟩ => show win3_4.index t (0 : Fin 2) * 256 + 1 * a0.val = a0.val; omega
  | ⟨1, _⟩ => show win3_4.index t (1 : Fin 2) * 256 + 1 * a1.val = a1.val; omega

/-- Row p of window 5's block at point t is row 2000 t + p of its array. -/
theorem emb5 (t : Fin cfg3.N) (p : Fin 2000) (k : Fin 256) (r : Fin 100000) (hr : r.val = t.val * 2000 + p.val) :
    ((cfg3.win 5).blk t).view.emb (ix2 p k) = ix2 r k := by
  obtain ⟨e00, e01, e10, e11, e20, e21, e30, e31, e40, e41, e50, e51⟩ := index_maps t
  funext a; apply Fin.ext
  match a with
  | ⟨0, _⟩ => show win3_5.index t (0 : Fin 2) * 2000 + 1 * p.val = r.val; omega
  | ⟨1, _⟩ => show win3_5.index t (1 : Fin 2) * 256 + 1 * k.val = k.val; omega

/-! Each fetched block read at an entry is its array read at the corresponding entry. -/

theorem read0 (c : Dev nD) (t : Fin cfg3.N) (p : Fin 2000) (k : Fin 256) (r : Fin 100000) (hr : r.val = t.val * 2000 + p.val) :
    iblk3 V c 0 t (ix2 p k) = (V c (Pipeline.arrRef spec3 0)) (ix2 r k) := by
  show (V c (Pipeline.arrRef spec3 0)) (((cfg3.win 0).blk t).view.emb (ix2 p k)) = _
  rw [emb0 t p k r hr]

theorem read1 (c : Dev nD) (t : Fin cfg3.N) (p : Fin 2000) (k : Fin 256) (r : Fin 100000) (hr : r.val = t.val * 2000 + p.val) :
    iblk3 V c 1 t (ix2 p k) = (V c (Pipeline.arrRef spec3 1)) (ix2 r k) := by
  show (V c (Pipeline.arrRef spec3 1)) (((cfg3.win 1).blk t).view.emb (ix2 p k)) = _
  rw [emb1 t p k r hr]

theorem read2 (c : Dev nD) (t : Fin cfg3.N) (a0 : Fin 256) (a1 : Fin 256) :
    iblk3 V c 2 t (ix2 a0 a1) = (V c (Pipeline.arrRef spec3 2)) (ix2 a0 a1) := by
  show (V c (Pipeline.arrRef spec3 2)) (((cfg3.win 2).blk t).view.emb (ix2 a0 a1)) = _
  rw [emb2 t a0 a1]

theorem read3 (c : Dev nD) (t : Fin cfg3.N) (a0 : Fin 1) (a1 : Fin 256) :
    iblk3 V c 3 t (ix2 a0 a1) = (V c (Pipeline.arrRef spec3 3)) (ix2 a0 a1) := by
  show (V c (Pipeline.arrRef spec3 3)) (((cfg3.win 3).blk t).view.emb (ix2 a0 a1)) = _
  rw [emb3 t a0 a1]

theorem read4 (c : Dev nD) (t : Fin cfg3.N) (a0 : Fin 256) (a1 : Fin 256) :
    iblk3 V c 4 t (ix2 a0 a1) = (V c (Pipeline.arrRef spec3 4)) (ix2 a0 a1) := by
  show (V c (Pipeline.arrRef spec3 4)) (((cfg3.win 4).blk t).view.emb (ix2 a0 a1)) = _
  rw [emb4 t a0 a1]

set_option maxHeartbeats 4000000 in
/-- What point t writes back is block t of the layer's whole-array function of the region's five input arrays. -/
theorem flushed_eq (c : Dev nD) (t : Fin cfg3.N) :
    (dat3 V c).flushed 5 t = ((cfg3.win 5).blk t).view.read (Elt Ideal)
      (layerLinear (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero origin]
  simp only [View.ld_unit_zero (S := S2000x256) origin, View.ld_unit_zero (S := S256x256) origin,
    View.ld_unit_zero (S := S1x256) origin]
  rw [show @k3_pay1 Ideal _ = @k2_pay1 Ideal _ from rfl]
  funext j
  obtain ⟨p, q, rfl⟩ : ∃ (p : Fin 2000) (q : Fin 256), j = ix2 p q := ⟨j 0, j 1, eq_ix2 j⟩
  have ht : t.val < 50 := t.isLt
  have hp : p.val < 2000 := p.isLt
  have hlt : t.val * 2000 + p.val < 100000 := by omega
  obtain ⟨r, hr⟩ : ∃ r : Fin 100000, r.val = t.val * 2000 + p.val := ⟨⟨t.val * 2000 + p.val, hlt⟩, rfl⟩
  show k2_pay1 (F := Ideal) (iblk3 V c 0 t) (iblk3 V c 1 t) (iblk3 V c 2 t) (iblk3 V c 4 t) (iblk3 V c 3 t) (ix2 p q)
    = layerLinear (V c (Pipeline.arrRef spec3 0)) (V c (Pipeline.arrRef spec3 1)) (V c (Pipeline.arrRef spec3 2)) (V c (Pipeline.arrRef spec3 3)) (V c (Pipeline.arrRef spec3 4)) (((cfg3.win 5).blk t).view.emb (ix2 p q))
  rw [emb5 t p q r hr]
  exact linear_block_entry (iblk3 V c 0 t) (iblk3 V c 1 t) (iblk3 V c 2 t) (iblk3 V c 4 t) (iblk3 V c 3 t) (V c (Pipeline.arrRef spec3 0)) (V c (Pipeline.arrRef spec3 1)) (V c (Pipeline.arrRef spec3 2)) (V c (Pipeline.arrRef spec3 3)) (V c (Pipeline.arrRef spec3 4)) p q r
    (fun k => read0 V c t p k r hr) (fun k => read1 V c t p k r hr)
    (fun k => read2 V c t k q) (fun k => read4 V c t k q) (read3 V c t (0 : Fin 1) q)

/-- An index of the output array is in point t's block iff each coordinate is in the block's range on its axis. -/
theorem mem_blk (t : Fin cfg3.N) (i : S100000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v124).slice (win3_5.rect t)).set ↔ _
  rw [View.set_slice_whole, Rect.mem_set_unit]
  exact Iff.rfl

/-- Every node's row is in some point's block: node r in block r / 2000. -/
theorem cover (i : S100000x256.Idx) :
    ∃ t : Fin cfg3.N, (cfg3.win 5).flush t = true ∧ i ∈ ((cfg3.win 5).blk t).view.set := by
  have h0 : (i 0).val < 100000 := (i 0).isLt
  have h1 : (i 1).val < 256 := (i 1).isLt
  have hq : (i 0).val / 2000 < 50 := by omega
  obtain ⟨-, -, -, -, -, -, -, -, -, -, e50, e51⟩ := index_maps (⟨(i 0).val / 2000, hq⟩ : Fin cfg3.N)
  have e50' : win3_5.index (⟨(i 0).val / 2000, hq⟩ : Fin cfg3.N) (0 : Fin 2) = (i 0).val / 2000 := e50
  refine ⟨⟨(i 0).val / 2000, hq⟩, flush3_5 _, ?_⟩
  rw [mem_blk]
  intro a
  match a with
  | ⟨0, _⟩ =>
    show win3_5.index (⟨(i 0).val / 2000, hq⟩ : Fin cfg3.N) (0 : Fin 2) * 2000 ≤ (i 0).val ∧ (i 0).val < win3_5.index (⟨(i 0).val / 2000, hq⟩ : Fin cfg3.N) (0 : Fin 2) * 2000 + 2000
    omega
  | ⟨1, _⟩ =>
    show win3_5.index (⟨(i 0).val / 2000, hq⟩ : Fin cfg3.N) (1 : Fin 2) * 256 ≤ (i 1).val ∧ (i 1).val < win3_5.index (⟨(i 0).val / 2000, hq⟩ : Fin cfg3.N) (1 : Fin 2) * 256 + 256
    omega

/-- After the region, its output array is the layer's whole-array function of its five input arrays. -/
theorem out_array (c : Dev nD) :
    (dat3 V c).arrAt 5 cfg3.N = layerLinear (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 _ (fun t _ => flushed_eq V c t) (cover)

end Cert.LinkScore.Region3

end
-- ==== Proof.Region4.lean ====
/-
  Region 4: the edge scorer, from its blocks to its whole output column.

  The grid has 50 points. Point t fetches rows 2000 t .. 2000 t + 1999 of the two endpoint arrays and writes back rows
  2000 t .. 2000 t + 1999 of the score column. What it writes at row p of its block is the logistic function of the
  inner product of the two arrays' rows 2000 t + p. The 50 blocks tile the 100000 rows, edge r lying in block r / 2000,
  so after the region the column is the scorer's whole-array function of the two arrays the region found at its entry.
-/
import proofs.«100248_j21938692948530_1_alg».proof.Proof.Gen.KernelIdeal.Frame
import proofs.«100248_j21938692948530_1_alg».proof.Proof.BodyValue
import proofs.«100248_j21938692948530_1_alg».proof.Proof.Spec
import Idealize.ShloMosaic.Lib.Pipeline.Value
import Idealize.ShloMosaic.Lib.ValueIdx

set_option maxRecDepth 16384

noncomputable section

namespace Cert.LinkScore.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LinkScore

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: all three windows move with the point along the rows. -/
theorem index_maps : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Row p of window 0's block at point t is row 2000 t + p of its array. -/
theorem emb0 (t : Fin cfg4.N) (p : Fin 2000) (k : Fin 256) (r : Fin 100000) (hr : r.val = t.val * 2000 + p.val) :
    ((cfg4.win 0).blk t).view.emb (ix2 p k) = ix2 r k := by
  obtain ⟨e00, e01, e10, e11, e20, e21⟩ := index_maps t
  funext a; apply Fin.ext
  match a with
  | ⟨0, _⟩ => show win4_0.index t (0 : Fin 2) * 2000 + 1 * p.val = r.val; omega
  | ⟨1, _⟩ => show win4_0.index t (1 : Fin 2) * 256 + 1 * k.val = k.val; omega

/-- Row p of window 1's block at point t is row 2000 t + p of its array. -/
theorem emb1 (t : Fin cfg4.N) (p : Fin 2000) (k : Fin 256) (r : Fin 100000) (hr : r.val = t.val * 2000 + p.val) :
    ((cfg4.win 1).blk t).view.emb (ix2 p k) = ix2 r k := by
  obtain ⟨e00, e01, e10, e11, e20, e21⟩ := index_maps t
  funext a; apply Fin.ext
  match a with
  | ⟨0, _⟩ => show win4_1.index t (0 : Fin 2) * 2000 + 1 * p.val = r.val; omega
  | ⟨1, _⟩ => show win4_1.index t (1 : Fin 2) * 256 + 1 * k.val = k.val; omega

/-- Row p of the output block at point t is row 2000 t + p of the score column. -/
theorem emb2 (t : Fin cfg4.N) (p : Fin 2000) (u : Fin 1) (r : Fin 100000) (hr : r.val = t.val * 2000 + p.val) :
    ((cfg4.win 2).blk t).view.emb (ix2 p u) = ix2 r u := by
  obtain ⟨e00, e01, e10, e11, e20, e21⟩ := index_maps t
  funext a; apply Fin.ext
  match a with
  | ⟨0, _⟩ => show win4_2.index t (0 : Fin 2) * 2000 + 1 * p.val = r.val; omega
  | ⟨1, _⟩ => show win4_2.index t (1 : Fin 2) * 1 + 1 * u.val = u.val; omega

theorem read0 (c : Dev nD) (t : Fin cfg4.N) (p : Fin 2000) (k : Fin 256) (r : Fin 100000) (hr : r.val = t.val * 2000 + p.val) :
    iblk4 V c 0 t (ix2 p k) = (V c (Pipeline.arrRef spec4 0)) (ix2 r k) := by
  show (V c (Pipeline.arrRef spec4 0)) (((cfg4.win 0).blk t).view.emb (ix2 p k)) = _
  rw [emb0 t p k r hr]

theorem read1 (c : Dev nD) (t : Fin cfg4.N) (p : Fin 2000) (k : Fin 256) (r : Fin 100000) (hr : r.val = t.val * 2000 + p.val) :
    iblk4 V c 1 t (ix2 p k) = (V c (Pipeline.arrRef spec4 1)) (ix2 r k) := by
  show (V c (Pipeline.arrRef spec4 1)) (((cfg4.win 1).blk t).view.emb (ix2 p k)) = _
  rw [emb1 t p k r hr]

/-- What point t writes back is block t of the scorer's whole-array function of the region's two input arrays. -/
theorem flushed_eq (c : Dev nD) (t : Fin cfg4.N) :
    (dat4 V c).flushed 2 t = ((cfg4.win 2).blk t).view.read (Elt Ideal) (scoreOut (V c (Pipeline.arrRef spec4 0)) (V c (Pipeline.arrRef spec4 1))) := by
  show (cfg4.win 2).cut (grid4.coords t) ((dat4 V c).after 2 t) = _
  rw [after4_2]
  unfold out4_2
  rw [View.canon_unit_zero origin]
  simp only [View.ld_unit_zero (S := S2000x256) origin]
  funext j
  obtain ⟨p, u, rfl⟩ : ∃ (p : Fin 2000) (u : Fin 1), j = ix2 p u := ⟨j 0, j 1, eq_ix2 j⟩
  have ht : t.val < 50 := t.isLt
  have hp : p.val < 2000 := p.isLt
  have hlt : t.val * 2000 + p.val < 100000 := by omega
  obtain ⟨r, hr⟩ : ∃ r : Fin 100000, r.val = t.val * 2000 + p.val := ⟨⟨t.val * 2000 + p.val, hlt⟩, rfl⟩
  show k4_pay1 (F := Ideal) (iblk4 V c 0 t) (iblk4 V c 1 t) (ix2 p u)
    = scoreOut (V c (Pipeline.arrRef spec4 0)) (V c (Pipeline.arrRef spec4 1)) (((cfg4.win 2).blk t).view.emb (ix2 p u))
  rw [emb2 t p u r hr]
  exact score_block_entry (iblk4 V c 0 t) (iblk4 V c 1 t) (V c (Pipeline.arrRef spec4 0)) (V c (Pipeline.arrRef spec4 1)) p u r
    (fun k => read0 V c t p k r hr) (fun k => read1 V c t p k r hr)

/-- An index of the score column is in point t's block iff each coordinate is in the block's range on its axis. -/
theorem mem_blk (t : Fin cfg4.N) (i : S100000x1.Idx) :
    i ∈ ((cfg4.win 2).blk t).view.set ↔ ∀ a : Fin 2, win4_2.index t a * S2000x1.size a ≤ (i a).val ∧ (i a).val < win4_2.index t a * S2000x1.size a + S2000x1.size a := by
  show i ∈ ((View.whole main_v143).slice (win4_2.rect t)).set ↔ _
  rw [View.set_slice_whole, Rect.mem_set_unit]
  exact Iff.rfl

/-- Every edge's row is in some point's block: edge r in block r / 2000. -/
theorem cover (i : S100000x1.Idx) :
    ∃ t : Fin cfg4.N, (cfg4.win 2).flush t = true ∧ i ∈ ((cfg4.win 2).blk t).view.set := by
  have h0 : (i 0).val < 100000 := (i 0).isLt
  have h1 : (i 1).val < 1 := (i 1).isLt
  have hq : (i 0).val / 2000 < 50 := by omega
  obtain ⟨-, -, -, -, e20, e21⟩ := index_maps (⟨(i 0).val / 2000, hq⟩ : Fin cfg4.N)
  have e20' : win4_2.index (⟨(i 0).val / 2000, hq⟩ : Fin cfg4.N) (0 : Fin 2) = (i 0).val / 2000 := e20
  refine ⟨⟨(i 0).val / 2000, hq⟩, flush4_2 _, ?_⟩
  rw [mem_blk]
  intro a
  match a with
  | ⟨0, _⟩ =>
    show win4_2.index (⟨(i 0).val / 2000, hq⟩ : Fin cfg4.N) (0 : Fin 2) * 2000 ≤ (i 0).val ∧ (i 0).val < win4_2.index (⟨(i 0).val / 2000, hq⟩ : Fin cfg4.N) (0 : Fin 2) * 2000 + 2000
    omega
  | ⟨1, _⟩ =>
    show win4_2.index (⟨(i 0).val / 2000, hq⟩ : Fin cfg4.N) (1 : Fin 2) * 1 ≤ (i 1).val ∧ (i 1).val < win4_2.index (⟨(i 0).val / 2000, hq⟩ : Fin cfg4.N) (1 : Fin 2) * 1 + 1
    omega

/-- After the region, the score column is the scorer's whole-array function of its two input arrays. -/
theorem out_array (c : Dev nD) :
    (dat4 V c).arrAt 2 cfg4.N = scoreOut (V c (Pipeline.arrRef spec4 0)) (V c (Pipeline.arrRef spec4 1)) :=
  (dat4 V c).arrAt_eq_of_cover 2 _ (fun t _ => flushed_eq V c t) (cover)

end Cert.LinkScore.Region4

end
-- ==== Proof.Stages.lean ====
/-
  The on-chip program's buffers, boundary by boundary, against the reference's stages.

  The program's run is a fold over buffer contents: six stretches of host operations around five regions. For every
  buffer that a later stretch or region reads, at every boundary of the fold up to the one where it is read, this file
  shows that the buffer holds the reference's corresponding stage value of the launch arguments. There are three kinds
  of step. A buffer written by a stretch is that stretch's operations applied to what the stretch found, and what it
  found is known from the boundary before; the composed operations are the reference's stage as it stands, because both
  programs apply the same host operations (the one exception is a bias laid out as a row, which the program writes as a
  reshape and the reference as a broadcast: one array). A buffer written by a region is the layer's, or the scorer's,
  whole-array function of the region's input arrays, which the reference's chain of host operations for that layer is
  too. A buffer that a stretch or a region does not write is after it what it was before.

  The chain ends with the result buffer after the last stretch: the score column laid out as a vector, which is the
  reference's result stage.
-/
import proofs.«100248_j21938692948530_1_alg».proof.Proof.EndRun
import proofs.«100248_j21938692948530_1_alg».proof.Proof.RefValue
import proofs.«100248_j21938692948530_1_alg».proof.Proof.LibRowVector
import proofs.«100248_j21938692948530_1_alg».proof.Proof.Region0
import proofs.«100248_j21938692948530_1_alg».proof.Proof.Region1
import proofs.«100248_j21938692948530_1_alg».proof.Proof.Region2
import proofs.«100248_j21938692948530_1_alg».proof.Proof.Region3
import proofs.«100248_j21938692948530_1_alg».proof.Proof.Region4
import Idealize.ShloMosaic.Lib.StableHlo.Run

set_option maxRecDepth 16384
set_option maxHeartbeats 4000000

noncomputable section

namespace Cert.LinkScore

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- A buffer no operation of a stretch writes is, after the stretch, as it was before. -/
macro "host_keeps " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- Argument 2 is as launched at every boundary up to the one where it is read. -/
theorem arg2_at0 (c : Dev nD) : W0 m ρ c (Proc.devRef .tc main_arg2) = m ((c : Thread nD τ).loc main_arg2) := rfl
theorem arg2_at1 (c : Dev nD) : W1 m ρ c (Proc.devRef .tc main_arg2) = m ((c : Thread nD τ).loc main_arg2) :=
  (by host_keeps hostOps0 : W1 m ρ c (Proc.devRef .tc main_arg2) = W0 m ρ c (Proc.devRef .tc main_arg2)).trans (arg2_at0 m ρ c)
theorem arg2_at2 (c : Dev nD) : W2 m ρ c (Proc.devRef .tc main_arg2) = m ((c : Thread nD τ).loc main_arg2) :=
  (W2_of_ne m ρ c main_arg2 (by decide) : W2 m ρ c (Proc.devRef .tc main_arg2) = W1 m ρ c (Proc.devRef .tc main_arg2)).trans (arg2_at1 m ρ c)
theorem arg2_at3 (c : Dev nD) : W3 m ρ c (Proc.devRef .tc main_arg2) = m ((c : Thread nD τ).loc main_arg2) :=
  (by host_keeps hostOps1 : W3 m ρ c (Proc.devRef .tc main_arg2) = W2 m ρ c (Proc.devRef .tc main_arg2)).trans (arg2_at2 m ρ c)
theorem arg2_at4 (c : Dev nD) : W4 m ρ c (Proc.devRef .tc main_arg2) = m ((c : Thread nD τ).loc main_arg2) :=
  (W4_of_ne m ρ c main_arg2 (by decide) : W4 m ρ c (Proc.devRef .tc main_arg2) = W3 m ρ c (Proc.devRef .tc main_arg2)).trans (arg2_at3 m ρ c)

/-- Argument 3 is as launched at every boundary up to the one where it is read. -/
theorem arg3_at0 (c : Dev nD) : W0 m ρ c (Proc.devRef .tc main_arg3) = m ((c : Thread nD τ).loc main_arg3) := rfl
theorem arg3_at1 (c : Dev nD) : W1 m ρ c (Proc.devRef .tc main_arg3) = m ((c : Thread nD τ).loc main_arg3) :=
  (by host_keeps hostOps0 : W1 m ρ c (Proc.devRef .tc main_arg3) = W0 m ρ c (Proc.devRef .tc main_arg3)).trans (arg3_at0 m ρ c)
theorem arg3_at2 (c : Dev nD) : W2 m ρ c (Proc.devRef .tc main_arg3) = m ((c : Thread nD τ).loc main_arg3) :=
  (W2_of_ne m ρ c main_arg3 (by decide) : W2 m ρ c (Proc.devRef .tc main_arg3) = W1 m ρ c (Proc.devRef .tc main_arg3)).trans (arg3_at1 m ρ c)
theorem arg3_at3 (c : Dev nD) : W3 m ρ c (Proc.devRef .tc main_arg3) = m ((c : Thread nD τ).loc main_arg3) :=
  (by host_keeps hostOps1 : W3 m ρ c (Proc.devRef .tc main_arg3) = W2 m ρ c (Proc.devRef .tc main_arg3)).trans (arg3_at2 m ρ c)
theorem arg3_at4 (c : Dev nD) : W4 m ρ c (Proc.devRef .tc main_arg3) = m ((c : Thread nD τ).loc main_arg3) :=
  (W4_of_ne m ρ c main_arg3 (by decide) : W4 m ρ c (Proc.devRef .tc main_arg3) = W3 m ρ c (Proc.devRef .tc main_arg3)).trans (arg3_at3 m ρ c)
theorem arg3_at5 (c : Dev nD) : W5 m ρ c (Proc.devRef .tc main_arg3) = m ((c : Thread nD τ).loc main_arg3) :=
  (by host_keeps hostOps2 : W5 m ρ c (Proc.devRef .tc main_arg3) = W4 m ρ c (Proc.devRef .tc main_arg3)).trans (arg3_at4 m ρ c)
theorem arg3_at6 (c : Dev nD) : W6 m ρ c (Proc.devRef .tc main_arg3) = m ((c : Thread nD τ).loc main_arg3) :=
  (W6_of_ne m ρ c main_arg3 (by decide) : W6 m ρ c (Proc.devRef .tc main_arg3) = W5 m ρ c (Proc.devRef .tc main_arg3)).trans (arg3_at5 m ρ c)
theorem arg3_at7 (c : Dev nD) : W7 m ρ c (Proc.devRef .tc main_arg3) = m ((c : Thread nD τ).loc main_arg3) :=
  (by host_keeps hostOps3 : W7 m ρ c (Proc.devRef .tc main_arg3) = W6 m ρ c (Proc.devRef .tc main_arg3)).trans (arg3_at6 m ρ c)
theorem arg3_at8 (c : Dev nD) : W8 m ρ c (Proc.devRef .tc main_arg3) = m ((c : Thread nD τ).loc main_arg3) :=
  (W8_of_ne m ρ c main_arg3 (by decide) : W8 m ρ c (Proc.devRef .tc main_arg3) = W7 m ρ c (Proc.devRef .tc main_arg3)).trans (arg3_at7 m ρ c)

/-- Argument 9 is as launched at every boundary up to the one where it is read. -/
theorem arg9_at0 (c : Dev nD) : W0 m ρ c (Proc.devRef .tc main_arg9) = m ((c : Thread nD τ).loc main_arg9) := rfl
theorem arg9_at1 (c : Dev nD) : W1 m ρ c (Proc.devRef .tc main_arg9) = m ((c : Thread nD τ).loc main_arg9) :=
  (by host_keeps hostOps0 : W1 m ρ c (Proc.devRef .tc main_arg9) = W0 m ρ c (Proc.devRef .tc main_arg9)).trans (arg9_at0 m ρ c)
theorem arg9_at2 (c : Dev nD) : W2 m ρ c (Proc.devRef .tc main_arg9) = m ((c : Thread nD τ).loc main_arg9) :=
  (W2_of_ne m ρ c main_arg9 (by decide) : W2 m ρ c (Proc.devRef .tc main_arg9) = W1 m ρ c (Proc.devRef .tc main_arg9)).trans (arg9_at1 m ρ c)

/-- Argument 10 is as launched at every boundary up to the one where it is read. -/
theorem arg10_at0 (c : Dev nD) : W0 m ρ c (Proc.devRef .tc main_arg10) = m ((c : Thread nD τ).loc main_arg10) := rfl
theorem arg10_at1 (c : Dev nD) : W1 m ρ c (Proc.devRef .tc main_arg10) = m ((c : Thread nD τ).loc main_arg10) :=
  (by host_keeps hostOps0 : W1 m ρ c (Proc.devRef .tc main_arg10) = W0 m ρ c (Proc.devRef .tc main_arg10)).trans (arg10_at0 m ρ c)
theorem arg10_at2 (c : Dev nD) : W2 m ρ c (Proc.devRef .tc main_arg10) = m ((c : Thread nD τ).loc main_arg10) :=
  (W2_of_ne m ρ c main_arg10 (by decide) : W2 m ρ c (Proc.devRef .tc main_arg10) = W1 m ρ c (Proc.devRef .tc main_arg10)).trans (arg10_at1 m ρ c)

/-- Argument 11 is as launched at every boundary up to the one where it is read. -/
theorem arg11_at0 (c : Dev nD) : W0 m ρ c (Proc.devRef .tc main_arg11) = m ((c : Thread nD τ).loc main_arg11) := rfl
theorem arg11_at1 (c : Dev nD) : W1 m ρ c (Proc.devRef .tc main_arg11) = m ((c : Thread nD τ).loc main_arg11) :=
  (by host_keeps hostOps0 : W1 m ρ c (Proc.devRef .tc main_arg11) = W0 m ρ c (Proc.devRef .tc main_arg11)).trans (arg11_at0 m ρ c)
theorem arg11_at2 (c : Dev nD) : W2 m ρ c (Proc.devRef .tc main_arg11) = m ((c : Thread nD τ).loc main_arg11) :=
  (W2_of_ne m ρ c main_arg11 (by decide) : W2 m ρ c (Proc.devRef .tc main_arg11) = W1 m ρ c (Proc.devRef .tc main_arg11)).trans (arg11_at1 m ρ c)

/-- Argument 12 is as launched at every boundary up to the one where it is read. -/
theorem arg12_at0 (c : Dev nD) : W0 m ρ c (Proc.devRef .tc main_arg12) = m ((c : Thread nD τ).loc main_arg12) := rfl
theorem arg12_at1 (c : Dev nD) : W1 m ρ c (Proc.devRef .tc main_arg12) = m ((c : Thread nD τ).loc main_arg12) :=
  (by host_keeps hostOps0 : W1 m ρ c (Proc.devRef .tc main_arg12) = W0 m ρ c (Proc.devRef .tc main_arg12)).trans (arg12_at0 m ρ c)
theorem arg12_at2 (c : Dev nD) : W2 m ρ c (Proc.devRef .tc main_arg12) = m ((c : Thread nD τ).loc main_arg12) :=
  (W2_of_ne m ρ c main_arg12 (by decide) : W2 m ρ c (Proc.devRef .tc main_arg12) = W1 m ρ c (Proc.devRef .tc main_arg12)).trans (arg12_at1 m ρ c)
theorem arg12_at3 (c : Dev nD) : W3 m ρ c (Proc.devRef .tc main_arg12) = m ((c : Thread nD τ).loc main_arg12) :=
  (by host_keeps hostOps1 : W3 m ρ c (Proc.devRef .tc main_arg12) = W2 m ρ c (Proc.devRef .tc main_arg12)).trans (arg12_at2 m ρ c)
theorem arg12_at4 (c : Dev nD) : W4 m ρ c (Proc.devRef .tc main_arg12) = m ((c : Thread nD τ).loc main_arg12) :=
  (W4_of_ne m ρ c main_arg12 (by decide) : W4 m ρ c (Proc.devRef .tc main_arg12) = W3 m ρ c (Proc.devRef .tc main_arg12)).trans (arg12_at3 m ρ c)

/-- Argument 13 is as launched at every boundary up to the one where it is read. -/
theorem arg13_at0 (c : Dev nD) : W0 m ρ c (Proc.devRef .tc main_arg13) = m ((c : Thread nD τ).loc main_arg13) := rfl
theorem arg13_at1 (c : Dev nD) : W1 m ρ c (Proc.devRef .tc main_arg13) = m ((c : Thread nD τ).loc main_arg13) :=
  (by host_keeps hostOps0 : W1 m ρ c (Proc.devRef .tc main_arg13) = W0 m ρ c (Proc.devRef .tc main_arg13)).trans (arg13_at0 m ρ c)
theorem arg13_at2 (c : Dev nD) : W2 m ρ c (Proc.devRef .tc main_arg13) = m ((c : Thread nD τ).loc main_arg13) :=
  (W2_of_ne m ρ c main_arg13 (by decide) : W2 m ρ c (Proc.devRef .tc main_arg13) = W1 m ρ c (Proc.devRef .tc main_arg13)).trans (arg13_at1 m ρ c)
theorem arg13_at3 (c : Dev nD) : W3 m ρ c (Proc.devRef .tc main_arg13) = m ((c : Thread nD τ).loc main_arg13) :=
  (by host_keeps hostOps1 : W3 m ρ c (Proc.devRef .tc main_arg13) = W2 m ρ c (Proc.devRef .tc main_arg13)).trans (arg13_at2 m ρ c)
theorem arg13_at4 (c : Dev nD) : W4 m ρ c (Proc.devRef .tc main_arg13) = m ((c : Thread nD τ).loc main_arg13) :=
  (W4_of_ne m ρ c main_arg13 (by decide) : W4 m ρ c (Proc.devRef .tc main_arg13) = W3 m ρ c (Proc.devRef .tc main_arg13)).trans (arg13_at3 m ρ c)

/-- Argument 14 is as launched at every boundary up to the one where it is read. -/
theorem arg14_at0 (c : Dev nD) : W0 m ρ c (Proc.devRef .tc main_arg14) = m ((c : Thread nD τ).loc main_arg14) := rfl
theorem arg14_at1 (c : Dev nD) : W1 m ρ c (Proc.devRef .tc main_arg14) = m ((c : Thread nD τ).loc main_arg14) :=
  (by host_keeps hostOps0 : W1 m ρ c (Proc.devRef .tc main_arg14) = W0 m ρ c (Proc.devRef .tc main_arg14)).trans (arg14_at0 m ρ c)
theorem arg14_at2 (c : Dev nD) : W2 m ρ c (Proc.devRef .tc main_arg14) = m ((c : Thread nD τ).loc main_arg14) :=
  (W2_of_ne m ρ c main_arg14 (by decide) : W2 m ρ c (Proc.devRef .tc main_arg14) = W1 m ρ c (Proc.devRef .tc main_arg14)).trans (arg14_at1 m ρ c)
theorem arg14_at3 (c : Dev nD) : W3 m ρ c (Proc.devRef .tc main_arg14) = m ((c : Thread nD τ).loc main_arg14) :=
  (by host_keeps hostOps1 : W3 m ρ c (Proc.devRef .tc main_arg14) = W2 m ρ c (Proc.devRef .tc main_arg14)).trans (arg14_at2 m ρ c)
theorem arg14_at4 (c : Dev nD) : W4 m ρ c (Proc.devRef .tc main_arg14) = m ((c : Thread nD τ).loc main_arg14) :=
  (W4_of_ne m ρ c main_arg14 (by decide) : W4 m ρ c (Proc.devRef .tc main_arg14) = W3 m ρ c (Proc.devRef .tc main_arg14)).trans (arg14_at3 m ρ c)

/-- Argument 15 is as launched at every boundary up to the one where it is read. -/
theorem arg15_at0 (c : Dev nD) : W0 m ρ c (Proc.devRef .tc main_arg15) = m ((c : Thread nD τ).loc main_arg15) := rfl
theorem arg15_at1 (c : Dev nD) : W1 m ρ c (Proc.devRef .tc main_arg15) = m ((c : Thread nD τ).loc main_arg15) :=
  (by host_keeps hostOps0 : W1 m ρ c (Proc.devRef .tc main_arg15) = W0 m ρ c (Proc.devRef .tc main_arg15)).trans (arg15_at0 m ρ c)
theorem arg15_at2 (c : Dev nD) : W2 m ρ c (Proc.devRef .tc main_arg15) = m ((c : Thread nD τ).loc main_arg15) :=
  (W2_of_ne m ρ c main_arg15 (by decide) : W2 m ρ c (Proc.devRef .tc main_arg15) = W1 m ρ c (Proc.devRef .tc main_arg15)).trans (arg15_at1 m ρ c)
theorem arg15_at3 (c : Dev nD) : W3 m ρ c (Proc.devRef .tc main_arg15) = m ((c : Thread nD τ).loc main_arg15) :=
  (by host_keeps hostOps1 : W3 m ρ c (Proc.devRef .tc main_arg15) = W2 m ρ c (Proc.devRef .tc main_arg15)).trans (arg15_at2 m ρ c)
theorem arg15_at4 (c : Dev nD) : W4 m ρ c (Proc.devRef .tc main_arg15) = m ((c : Thread nD τ).loc main_arg15) :=
  (W4_of_ne m ρ c main_arg15 (by decide) : W4 m ρ c (Proc.devRef .tc main_arg15) = W3 m ρ c (Proc.devRef .tc main_arg15)).trans (arg15_at3 m ρ c)
theorem arg15_at5 (c : Dev nD) : W5 m ρ c (Proc.devRef .tc main_arg15) = m ((c : Thread nD τ).loc main_arg15) :=
  (by host_keeps hostOps2 : W5 m ρ c (Proc.devRef .tc main_arg15) = W4 m ρ c (Proc.devRef .tc main_arg15)).trans (arg15_at4 m ρ c)
theorem arg15_at6 (c : Dev nD) : W6 m ρ c (Proc.devRef .tc main_arg15) = m ((c : Thread nD τ).loc main_arg15) :=
  (W6_of_ne m ρ c main_arg15 (by decide) : W6 m ρ c (Proc.devRef .tc main_arg15) = W5 m ρ c (Proc.devRef .tc main_arg15)).trans (arg15_at5 m ρ c)

/-- Argument 16 is as launched at every boundary up to the one where it is read. -/
theorem arg16_at0 (c : Dev nD) : W0 m ρ c (Proc.devRef .tc main_arg16) = m ((c : Thread nD τ).loc main_arg16) := rfl
theorem arg16_at1 (c : Dev nD) : W1 m ρ c (Proc.devRef .tc main_arg16) = m ((c : Thread nD τ).loc main_arg16) :=
  (by host_keeps hostOps0 : W1 m ρ c (Proc.devRef .tc main_arg16) = W0 m ρ c (Proc.devRef .tc main_arg16)).trans (arg16_at0 m ρ c)
theorem arg16_at2 (c : Dev nD) : W2 m ρ c (Proc.devRef .tc main_arg16) = m ((c : Thread nD τ).loc main_arg16) :=
  (W2_of_ne m ρ c main_arg16 (by decide) : W2 m ρ c (Proc.devRef .tc main_arg16) = W1 m ρ c (Proc.devRef .tc main_arg16)).trans (arg16_at1 m ρ c)
theorem arg16_at3 (c : Dev nD) : W3 m ρ c (Proc.devRef .tc main_arg16) = m ((c : Thread nD τ).loc main_arg16) :=
  (by host_keeps hostOps1 : W3 m ρ c (Proc.devRef .tc main_arg16) = W2 m ρ c (Proc.devRef .tc main_arg16)).trans (arg16_at2 m ρ c)
theorem arg16_at4 (c : Dev nD) : W4 m ρ c (Proc.devRef .tc main_arg16) = m ((c : Thread nD τ).loc main_arg16) :=
  (W4_of_ne m ρ c main_arg16 (by decide) : W4 m ρ c (Proc.devRef .tc main_arg16) = W3 m ρ c (Proc.devRef .tc main_arg16)).trans (arg16_at3 m ρ c)
theorem arg16_at5 (c : Dev nD) : W5 m ρ c (Proc.devRef .tc main_arg16) = m ((c : Thread nD τ).loc main_arg16) :=
  (by host_keeps hostOps2 : W5 m ρ c (Proc.devRef .tc main_arg16) = W4 m ρ c (Proc.devRef .tc main_arg16)).trans (arg16_at4 m ρ c)
theorem arg16_at6 (c : Dev nD) : W6 m ρ c (Proc.devRef .tc main_arg16) = m ((c : Thread nD τ).loc main_arg16) :=
  (W6_of_ne m ρ c main_arg16 (by decide) : W6 m ρ c (Proc.devRef .tc main_arg16) = W5 m ρ c (Proc.devRef .tc main_arg16)).trans (arg16_at5 m ρ c)

/-- Argument 17 is as launched at every boundary up to the one where it is read. -/
theorem arg17_at0 (c : Dev nD) : W0 m ρ c (Proc.devRef .tc main_arg17) = m ((c : Thread nD τ).loc main_arg17) := rfl
theorem arg17_at1 (c : Dev nD) : W1 m ρ c (Proc.devRef .tc main_arg17) = m ((c : Thread nD τ).loc main_arg17) :=
  (by host_keeps hostOps0 : W1 m ρ c (Proc.devRef .tc main_arg17) = W0 m ρ c (Proc.devRef .tc main_arg17)).trans (arg17_at0 m ρ c)
theorem arg17_at2 (c : Dev nD) : W2 m ρ c (Proc.devRef .tc main_arg17) = m ((c : Thread nD τ).loc main_arg17) :=
  (W2_of_ne m ρ c main_arg17 (by decide) : W2 m ρ c (Proc.devRef .tc main_arg17) = W1 m ρ c (Proc.devRef .tc main_arg17)).trans (arg17_at1 m ρ c)
theorem arg17_at3 (c : Dev nD) : W3 m ρ c (Proc.devRef .tc main_arg17) = m ((c : Thread nD τ).loc main_arg17) :=
  (by host_keeps hostOps1 : W3 m ρ c (Proc.devRef .tc main_arg17) = W2 m ρ c (Proc.devRef .tc main_arg17)).trans (arg17_at2 m ρ c)
theorem arg17_at4 (c : Dev nD) : W4 m ρ c (Proc.devRef .tc main_arg17) = m ((c : Thread nD τ).loc main_arg17) :=
  (W4_of_ne m ρ c main_arg17 (by decide) : W4 m ρ c (Proc.devRef .tc main_arg17) = W3 m ρ c (Proc.devRef .tc main_arg17)).trans (arg17_at3 m ρ c)
theorem arg17_at5 (c : Dev nD) : W5 m ρ c (Proc.devRef .tc main_arg17) = m ((c : Thread nD τ).loc main_arg17) :=
  (by host_keeps hostOps2 : W5 m ρ c (Proc.devRef .tc main_arg17) = W4 m ρ c (Proc.devRef .tc main_arg17)).trans (arg17_at4 m ρ c)
theorem arg17_at6 (c : Dev nD) : W6 m ρ c (Proc.devRef .tc main_arg17) = m ((c : Thread nD τ).loc main_arg17) :=
  (W6_of_ne m ρ c main_arg17 (by decide) : W6 m ρ c (Proc.devRef .tc main_arg17) = W5 m ρ c (Proc.devRef .tc main_arg17)).trans (arg17_at5 m ρ c)

/-! ## After the first stretch of host operations -/

theorem at1_v6 (c : Dev nD) : W1 m ρ c (Proc.devRef .tc main_v6) = (Cert.ReferenceIdeal.Read.val_main_v6 (F := Ideal) (m ((c : Thread nD τ).loc main_arg2))) := by
  show StableHlo.after hostOps0 (W0 m ρ c) (Proc.devRef .tc main_v6) = _
  after_results_simp
  rfl

theorem at1_v13 (c : Dev nD) : W1 m ρ c (Proc.devRef .tc main_v13) = (Cert.ReferenceIdeal.Read.val_main_v13 (F := Ideal) (m ((c : Thread nD τ).loc main_arg0)) (m ((c : Thread nD τ).loc main_arg4))) := by
  show StableHlo.after hostOps0 (W0 m ρ c) (Proc.devRef .tc main_v13) = _
  after_results_simp
  rfl

theorem at1_v20 (c : Dev nD) : W1 m ρ c (Proc.devRef .tc main_v20) = (Cert.ReferenceIdeal.Read.val_main_v20 (F := Ideal) (m ((c : Thread nD τ).loc main_arg1)) (m ((c : Thread nD τ).loc main_arg5))) := by
  show StableHlo.after hostOps0 (W0 m ρ c) (Proc.devRef .tc main_v20) = _
  after_results_simp
  rfl

theorem at1_v26 (c : Dev nD) : W1 m ρ c (Proc.devRef .tc main_v26) = (Cert.ReferenceIdeal.Read.val_main_v38 (F := Ideal) (m ((c : Thread nD τ).loc main_arg2))) := by
  show StableHlo.after hostOps0 (W0 m ρ c) (Proc.devRef .tc main_v26) = _
  after_results_simp
  rfl

theorem at1_v32 (c : Dev nD) : W1 m ρ c (Proc.devRef .tc main_v32) = (Cert.ReferenceIdeal.Read.val_main_v70 (F := Ideal) (m ((c : Thread nD τ).loc main_arg2))) := by
  show StableHlo.after hostOps0 (W0 m ρ c) (Proc.devRef .tc main_v32) = _
  after_results_simp
  rfl

theorem at1_v51 (c : Dev nD) : W1 m ρ c (Proc.devRef .tc main_v51) = (Cert.ReferenceIdeal.Read.val_main_v43 (F := Ideal) (m ((c : Thread nD τ).loc main_arg0)) (m ((c : Thread nD τ).loc main_arg2)) (m ((c : Thread nD τ).loc main_arg4))) := by
  show StableHlo.after hostOps0 (W0 m ρ c) (Proc.devRef .tc main_v51) = _
  after_results_simp
  rfl

theorem at1_v70 (c : Dev nD) : W1 m ρ c (Proc.devRef .tc main_v70) = (Cert.ReferenceIdeal.Read.val_main_v75 (F := Ideal) (m ((c : Thread nD τ).loc main_arg1)) (m ((c : Thread nD τ).loc main_arg2)) (m ((c : Thread nD τ).loc main_arg5))) := by
  show StableHlo.after hostOps0 (W0 m ρ c) (Proc.devRef .tc main_v70) = _
  after_results_simp
  rfl

theorem at1_v71 (c : Dev nD) : W1 m ρ c (Proc.devRef .tc main_v71) = (Cert.ReferenceIdeal.Read.val_main_v44 (F := Ideal) (m ((c : Thread nD τ).loc main_arg6))) := by
  show StableHlo.after hostOps0 (W0 m ρ c) (Proc.devRef .tc main_v71) = _
  after_results_simp
  rfl

theorem at1_v72 (c : Dev nD) : W1 m ρ c (Proc.devRef .tc main_v72) = (Cert.ReferenceIdeal.Read.val_main_v49 (F := Ideal) (m ((c : Thread nD τ).loc main_arg8))) := by
  show StableHlo.after hostOps0 (W0 m ρ c) (Proc.devRef .tc main_v72) = _
  after_results_simp
  rfl

theorem at1_v73 (c : Dev nD) : W1 m ρ c (Proc.devRef .tc main_v73) = (Cert.ReferenceIdeal.Read.val_main_v46 (F := Ideal) (m ((c : Thread nD τ).loc main_arg7))) := by
  show StableHlo.after hostOps0 (W0 m ρ c) (Proc.devRef .tc main_v73) = _
  after_results_simp
  exact Cert.RowVector.reshape_eq_broadcast _ _ _

/-! ## After region 0: the first layer on the target nodes -/

theorem at2_v74 (c : Dev nD) : W2 m ρ c (Proc.devRef .tc main_v74) = (Cert.ReferenceIdeal.Read.val_main_v52 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W2_arr m ρ c 5).trans ?_
  rw [Region0.out_array (V1 m ρ) c]
  show layerClamped (W1 m ρ c (Proc.devRef .tc main_v51)) (W1 m ρ c (Proc.devRef .tc main_v20)) (W1 m ρ c (Proc.devRef .tc main_v71)) (W1 m ρ c (Proc.devRef .tc main_v73)) (W1 m ρ c (Proc.devRef .tc main_v72)) = _
  rw [at1_v51 m ρ c, at1_v20 m ρ c, at1_v71 m ρ c, at1_v73 m ρ c, at1_v72 m ρ c]
  exact (layer1_tgt _ _ _ _ _ _ _ _).symm

theorem at2_v70 (c : Dev nD) : W2 m ρ c (Proc.devRef .tc main_v70) = (Cert.ReferenceIdeal.Read.val_main_v75 (F := Ideal) (m ((c : Thread nD τ).loc main_arg1)) (m ((c : Thread nD τ).loc main_arg2)) (m ((c : Thread nD τ).loc main_arg5))) :=
  (W2_of_ne m ρ c main_v70 (by decide) : W2 m ρ c (Proc.devRef .tc main_v70) = W1 m ρ c (Proc.devRef .tc main_v70)).trans (at1_v70 m ρ c)
theorem at2_v13 (c : Dev nD) : W2 m ρ c (Proc.devRef .tc main_v13) = (Cert.ReferenceIdeal.Read.val_main_v13 (F := Ideal) (m ((c : Thread nD τ).loc main_arg0)) (m ((c : Thread nD τ).loc main_arg4))) :=
  (W2_of_ne m ρ c main_v13 (by decide) : W2 m ρ c (Proc.devRef .tc main_v13) = W1 m ρ c (Proc.devRef .tc main_v13)).trans (at1_v13 m ρ c)
theorem at2_v26 (c : Dev nD) : W2 m ρ c (Proc.devRef .tc main_v26) = (Cert.ReferenceIdeal.Read.val_main_v38 (F := Ideal) (m ((c : Thread nD τ).loc main_arg2))) :=
  (W2_of_ne m ρ c main_v26 (by decide) : W2 m ρ c (Proc.devRef .tc main_v26) = W1 m ρ c (Proc.devRef .tc main_v26)).trans (at1_v26 m ρ c)
theorem at2_v6 (c : Dev nD) : W2 m ρ c (Proc.devRef .tc main_v6) = (Cert.ReferenceIdeal.Read.val_main_v6 (F := Ideal) (m ((c : Thread nD τ).loc main_arg2))) :=
  (W2_of_ne m ρ c main_v6 (by decide) : W2 m ρ c (Proc.devRef .tc main_v6) = W1 m ρ c (Proc.devRef .tc main_v6)).trans (at1_v6 m ρ c)
theorem at2_v32 (c : Dev nD) : W2 m ρ c (Proc.devRef .tc main_v32) = (Cert.ReferenceIdeal.Read.val_main_v70 (F := Ideal) (m ((c : Thread nD τ).loc main_arg2))) :=
  (W2_of_ne m ρ c main_v32 (by decide) : W2 m ρ c (Proc.devRef .tc main_v32) = W1 m ρ c (Proc.devRef .tc main_v32)).trans (at1_v32 m ρ c)

/-! ## After the second stretch -/

theorem at3_v75 (c : Dev nD) : W3 m ρ c (Proc.devRef .tc main_v75) = (Cert.ReferenceIdeal.Read.val_main_v76 (F := Ideal) (m ((c : Thread nD τ).loc main_arg9))) := by
  show StableHlo.after hostOps1 (W2 m ρ c) (Proc.devRef .tc main_v75) = _
  after_results_simp
  simp only [arg9_at2 m ρ c]
  rfl

theorem at3_v76 (c : Dev nD) : W3 m ρ c (Proc.devRef .tc main_v76) = (Cert.ReferenceIdeal.Read.val_main_v81 (F := Ideal) (m ((c : Thread nD τ).loc main_arg11))) := by
  show StableHlo.after hostOps1 (W2 m ρ c) (Proc.devRef .tc main_v76) = _
  after_results_simp
  simp only [arg11_at2 m ρ c]
  rfl

theorem at3_v77 (c : Dev nD) : W3 m ρ c (Proc.devRef .tc main_v77) = (Cert.ReferenceIdeal.Read.val_main_v78 (F := Ideal) (m ((c : Thread nD τ).loc main_arg10))) := by
  show StableHlo.after hostOps1 (W2 m ρ c) (Proc.devRef .tc main_v77) = _
  after_results_simp
  simp only [arg10_at2 m ρ c]
  exact Cert.RowVector.reshape_eq_broadcast _ _ _

theorem at3_v70 (c : Dev nD) : W3 m ρ c (Proc.devRef .tc main_v70) = (Cert.ReferenceIdeal.Read.val_main_v75 (F := Ideal) (m ((c : Thread nD τ).loc main_arg1)) (m ((c : Thread nD τ).loc main_arg2)) (m ((c : Thread nD τ).loc main_arg5))) :=
  (by host_keeps hostOps1 : W3 m ρ c (Proc.devRef .tc main_v70) = W2 m ρ c (Proc.devRef .tc main_v70)).trans (at2_v70 m ρ c)
theorem at3_v13 (c : Dev nD) : W3 m ρ c (Proc.devRef .tc main_v13) = (Cert.ReferenceIdeal.Read.val_main_v13 (F := Ideal) (m ((c : Thread nD τ).loc main_arg0)) (m ((c : Thread nD τ).loc main_arg4))) :=
  (by host_keeps hostOps1 : W3 m ρ c (Proc.devRef .tc main_v13) = W2 m ρ c (Proc.devRef .tc main_v13)).trans (at2_v13 m ρ c)
theorem at3_v26 (c : Dev nD) : W3 m ρ c (Proc.devRef .tc main_v26) = (Cert.ReferenceIdeal.Read.val_main_v38 (F := Ideal) (m ((c : Thread nD τ).loc main_arg2))) :=
  (by host_keeps hostOps1 : W3 m ρ c (Proc.devRef .tc main_v26) = W2 m ρ c (Proc.devRef .tc main_v26)).trans (at2_v26 m ρ c)
theorem at3_v6 (c : Dev nD) : W3 m ρ c (Proc.devRef .tc main_v6) = (Cert.ReferenceIdeal.Read.val_main_v6 (F := Ideal) (m ((c : Thread nD τ).loc main_arg2))) :=
  (by host_keeps hostOps1 : W3 m ρ c (Proc.devRef .tc main_v6) = W2 m ρ c (Proc.devRef .tc main_v6)).trans (at2_v6 m ρ c)
theorem at3_v32 (c : Dev nD) : W3 m ρ c (Proc.devRef .tc main_v32) = (Cert.ReferenceIdeal.Read.val_main_v70 (F := Ideal) (m ((c : Thread nD τ).loc main_arg2))) :=
  (by host_keeps hostOps1 : W3 m ρ c (Proc.devRef .tc main_v32) = W2 m ρ c (Proc.devRef .tc main_v32)).trans (at2_v32 m ρ c)
theorem at3_v74 (c : Dev nD) : W3 m ρ c (Proc.devRef .tc main_v74) = (Cert.ReferenceIdeal.Read.val_main_v52 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) :=
  (by host_keeps hostOps1 : W3 m ρ c (Proc.devRef .tc main_v74) = W2 m ρ c (Proc.devRef .tc main_v74)).trans (at2_v74 m ρ c)

/-! ## After region 1: the first layer on the source nodes -/

theorem at4_v78 (c : Dev nD) : W4 m ρ c (Proc.devRef .tc main_v78) = (Cert.ReferenceIdeal.Read.val_main_v84 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg9)) (m ((c : Thread nD τ).loc main_arg10)) (m ((c : Thread nD τ).loc main_arg11))) := by
  refine (W4_arr m ρ c 5).trans ?_
  rw [Region1.out_array (V3 m ρ) c]
  show layerClamped (W3 m ρ c (Proc.devRef .tc main_v70)) (W3 m ρ c (Proc.devRef .tc main_v13)) (W3 m ρ c (Proc.devRef .tc main_v75)) (W3 m ρ c (Proc.devRef .tc main_v77)) (W3 m ρ c (Proc.devRef .tc main_v76)) = _
  rw [at3_v70 m ρ c, at3_v13 m ρ c, at3_v75 m ρ c, at3_v77 m ρ c, at3_v76 m ρ c]
  exact (layer1_src _ _ _ _ _ _ _ _).symm

theorem at4_v26 (c : Dev nD) : W4 m ρ c (Proc.devRef .tc main_v26) = (Cert.ReferenceIdeal.Read.val_main_v38 (F := Ideal) (m ((c : Thread nD τ).loc main_arg2))) :=
  (W4_of_ne m ρ c main_v26 (by decide) : W4 m ρ c (Proc.devRef .tc main_v26) = W3 m ρ c (Proc.devRef .tc main_v26)).trans (at3_v26 m ρ c)
theorem at4_v6 (c : Dev nD) : W4 m ρ c (Proc.devRef .tc main_v6) = (Cert.ReferenceIdeal.Read.val_main_v6 (F := Ideal) (m ((c : Thread nD τ).loc main_arg2))) :=
  (W4_of_ne m ρ c main_v6 (by decide) : W4 m ρ c (Proc.devRef .tc main_v6) = W3 m ρ c (Proc.devRef .tc main_v6)).trans (at3_v6 m ρ c)
theorem at4_v32 (c : Dev nD) : W4 m ρ c (Proc.devRef .tc main_v32) = (Cert.ReferenceIdeal.Read.val_main_v70 (F := Ideal) (m ((c : Thread nD τ).loc main_arg2))) :=
  (W4_of_ne m ρ c main_v32 (by decide) : W4 m ρ c (Proc.devRef .tc main_v32) = W3 m ρ c (Proc.devRef .tc main_v32)).trans (at3_v32 m ρ c)
theorem at4_v74 (c : Dev nD) : W4 m ρ c (Proc.devRef .tc main_v74) = (Cert.ReferenceIdeal.Read.val_main_v52 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) :=
  (W4_of_ne m ρ c main_v74 (by decide) : W4 m ρ c (Proc.devRef .tc main_v74) = W3 m ρ c (Proc.devRef .tc main_v74)).trans (at3_v74 m ρ c)

/-! ## After the third stretch: the second layer's neighbour means -/

theorem at5_v97 (c : Dev nD) : W5 m ρ c (Proc.devRef .tc main_v97) = (Cert.ReferenceIdeal.Read.val_main_v107 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg9)) (m ((c : Thread nD τ).loc main_arg10)) (m ((c : Thread nD τ).loc main_arg11))) := by
  show StableHlo.after hostOps2 (W4 m ρ c) (Proc.devRef .tc main_v97) = _
  after_results_simp
  simp only [at4_v78 m ρ c, arg2_at4 m ρ c, at4_v26 m ρ c]
  rfl

theorem at5_v116 (c : Dev nD) : W5 m ρ c (Proc.devRef .tc main_v116) = (Cert.ReferenceIdeal.Read.val_main_v138 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps2 (W4 m ρ c) (Proc.devRef .tc main_v116) = _
  after_results_simp
  simp only [at4_v74 m ρ c, at4_v6 m ρ c, at4_v32 m ρ c]
  rfl

theorem at5_v117 (c : Dev nD) : W5 m ρ c (Proc.devRef .tc main_v117) = (Cert.ReferenceIdeal.Read.val_main_v108 (F := Ideal) (m ((c : Thread nD τ).loc main_arg12))) := by
  show StableHlo.after hostOps2 (W4 m ρ c) (Proc.devRef .tc main_v117) = _
  after_results_simp
  simp only [arg12_at4 m ρ c]
  rfl

theorem at5_v118 (c : Dev nD) : W5 m ρ c (Proc.devRef .tc main_v118) = (Cert.ReferenceIdeal.Read.val_main_v113 (F := Ideal) (m ((c : Thread nD τ).loc main_arg14))) := by
  show StableHlo.after hostOps2 (W4 m ρ c) (Proc.devRef .tc main_v118) = _
  after_results_simp
  simp only [arg14_at4 m ρ c]
  rfl

theorem at5_v119 (c : Dev nD) : W5 m ρ c (Proc.devRef .tc main_v119) = (Cert.ReferenceIdeal.Read.val_main_v110 (F := Ideal) (m ((c : Thread nD τ).loc main_arg13))) := by
  show StableHlo.after hostOps2 (W4 m ρ c) (Proc.devRef .tc main_v119) = _
  after_results_simp
  simp only [arg13_at4 m ρ c]
  exact Cert.RowVector.reshape_eq_broadcast _ _ _

theorem at5_v74 (c : Dev nD) : W5 m ρ c (Proc.devRef .tc main_v74) = (Cert.ReferenceIdeal.Read.val_main_v52 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) :=
  (by host_keeps hostOps2 : W5 m ρ c (Proc.devRef .tc main_v74) = W4 m ρ c (Proc.devRef .tc main_v74)).trans (at4_v74 m ρ c)
theorem at5_v78 (c : Dev nD) : W5 m ρ c (Proc.devRef .tc main_v78) = (Cert.ReferenceIdeal.Read.val_main_v84 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg9)) (m ((c : Thread nD τ).loc main_arg10)) (m ((c : Thread nD τ).loc main_arg11))) :=
  (by host_keeps hostOps2 : W5 m ρ c (Proc.devRef .tc main_v78) = W4 m ρ c (Proc.devRef .tc main_v78)).trans (at4_v78 m ρ c)

/-! ## After region 2: the second layer on the target nodes -/

theorem at6_v120 (c : Dev nD) : W6 m ρ c (Proc.devRef .tc main_v120) = (Cert.ReferenceIdeal.Read.val_main_v115 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine (W6_arr m ρ c 5).trans ?_
  rw [Region2.out_array (V5 m ρ) c]
  show layerLinear (W5 m ρ c (Proc.devRef .tc main_v97)) (W5 m ρ c (Proc.devRef .tc main_v74)) (W5 m ρ c (Proc.devRef .tc main_v117)) (W5 m ρ c (Proc.devRef .tc main_v119)) (W5 m ρ c (Proc.devRef .tc main_v118)) = _
  rw [at5_v97 m ρ c, at5_v74 m ρ c, at5_v117 m ρ c, at5_v119 m ρ c, at5_v118 m ρ c]
  exact (layer2_tgt _ _ _ _ _ _ _ _ _ _ _ _ _ _).symm

theorem at6_v116 (c : Dev nD) : W6 m ρ c (Proc.devRef .tc main_v116) = (Cert.ReferenceIdeal.Read.val_main_v138 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) :=
  (W6_of_ne m ρ c main_v116 (by decide) : W6 m ρ c (Proc.devRef .tc main_v116) = W5 m ρ c (Proc.devRef .tc main_v116)).trans (at5_v116 m ρ c)
theorem at6_v78 (c : Dev nD) : W6 m ρ c (Proc.devRef .tc main_v78) = (Cert.ReferenceIdeal.Read.val_main_v84 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg9)) (m ((c : Thread nD τ).loc main_arg10)) (m ((c : Thread nD τ).loc main_arg11))) :=
  (W6_of_ne m ρ c main_v78 (by decide) : W6 m ρ c (Proc.devRef .tc main_v78) = W5 m ρ c (Proc.devRef .tc main_v78)).trans (at5_v78 m ρ c)

/-! ## After the fourth stretch -/

theorem at7_v121 (c : Dev nD) : W7 m ρ c (Proc.devRef .tc main_v121) = (Cert.ReferenceIdeal.Read.val_main_v139 (F := Ideal) (m ((c : Thread nD τ).loc main_arg15))) := by
  show StableHlo.after hostOps3 (W6 m ρ c) (Proc.devRef .tc main_v121) = _
  after_results_simp
  simp only [arg15_at6 m ρ c]
  rfl

theorem at7_v122 (c : Dev nD) : W7 m ρ c (Proc.devRef .tc main_v122) = (Cert.ReferenceIdeal.Read.val_main_v144 (F := Ideal) (m ((c : Thread nD τ).loc main_arg17))) := by
  show StableHlo.after hostOps3 (W6 m ρ c) (Proc.devRef .tc main_v122) = _
  after_results_simp
  simp only [arg17_at6 m ρ c]
  rfl

theorem at7_v123 (c : Dev nD) : W7 m ρ c (Proc.devRef .tc main_v123) = (Cert.ReferenceIdeal.Read.val_main_v141 (F := Ideal) (m ((c : Thread nD τ).loc main_arg16))) := by
  show StableHlo.after hostOps3 (W6 m ρ c) (Proc.devRef .tc main_v123) = _
  after_results_simp
  simp only [arg16_at6 m ρ c]
  exact Cert.RowVector.reshape_eq_broadcast _ _ _

theorem at7_v116 (c : Dev nD) : W7 m ρ c (Proc.devRef .tc main_v116) = (Cert.ReferenceIdeal.Read.val_main_v138 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) :=
  (by host_keeps hostOps3 : W7 m ρ c (Proc.devRef .tc main_v116) = W6 m ρ c (Proc.devRef .tc main_v116)).trans (at6_v116 m ρ c)
theorem at7_v78 (c : Dev nD) : W7 m ρ c (Proc.devRef .tc main_v78) = (Cert.ReferenceIdeal.Read.val_main_v84 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg9)) (m ((c : Thread nD τ).loc main_arg10)) (m ((c : Thread nD τ).loc main_arg11))) :=
  (by host_keeps hostOps3 : W7 m ρ c (Proc.devRef .tc main_v78) = W6 m ρ c (Proc.devRef .tc main_v78)).trans (at6_v78 m ρ c)
theorem at7_v120 (c : Dev nD) : W7 m ρ c (Proc.devRef .tc main_v120) = (Cert.ReferenceIdeal.Read.val_main_v115 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :=
  (by host_keeps hostOps3 : W7 m ρ c (Proc.devRef .tc main_v120) = W6 m ρ c (Proc.devRef .tc main_v120)).trans (at6_v120 m ρ c)

/-! ## After region 3: the second layer on the source nodes -/

theorem at8_v124 (c : Dev nD) : W8 m ρ c (Proc.devRef .tc main_v124) = (Cert.ReferenceIdeal.Read.val_main_v146 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17))) := by
  refine (W8_arr m ρ c 5).trans ?_
  rw [Region3.out_array (V7 m ρ) c]
  show layerLinear (W7 m ρ c (Proc.devRef .tc main_v116)) (W7 m ρ c (Proc.devRef .tc main_v78)) (W7 m ρ c (Proc.devRef .tc main_v121)) (W7 m ρ c (Proc.devRef .tc main_v123)) (W7 m ρ c (Proc.devRef .tc main_v122)) = _
  rw [at7_v116 m ρ c, at7_v78 m ρ c, at7_v121 m ρ c, at7_v123 m ρ c, at7_v122 m ρ c]
  exact (layer2_src _ _ _ _ _ _ _ _ _ _ _ _ _ _).symm

theorem at8_v120 (c : Dev nD) : W8 m ρ c (Proc.devRef .tc main_v120) = (Cert.ReferenceIdeal.Read.val_main_v115 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :=
  (W8_of_ne m ρ c main_v120 (by decide) : W8 m ρ c (Proc.devRef .tc main_v120) = W7 m ρ c (Proc.devRef .tc main_v120)).trans (at7_v120 m ρ c)

/-! ## After the fifth stretch: the endpoint rows of the supervision edges -/

theorem at9_v133 (c : Dev nD) : W9 m ρ c (Proc.devRef .tc main_v133) = (Cert.ReferenceIdeal.Read.val_main_v155 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17))) := by
  show StableHlo.after hostOps4 (W8 m ρ c) (Proc.devRef .tc main_v133) = _
  after_results_simp
  simp only [at8_v124 m ρ c, arg3_at8 m ρ c]
  rfl

theorem at9_v142 (c : Dev nD) : W9 m ρ c (Proc.devRef .tc main_v142) = (Cert.ReferenceIdeal.Read.val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  show StableHlo.after hostOps4 (W8 m ρ c) (Proc.devRef .tc main_v142) = _
  after_results_simp
  simp only [at8_v120 m ρ c, arg3_at8 m ρ c]
  rfl

/-! ## After region 4: the score column -/

theorem at10_v143 (c : Dev nD) : W10 m ρ c (Proc.devRef .tc main_v143) = scoreOut (Cert.ReferenceIdeal.Read.val_main_v155 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17))) (Cert.ReferenceIdeal.Read.val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine (W10_arr m ρ c 2).trans ?_
  rw [Region4.out_array (V9 m ρ) c]
  show scoreOut (W9 m ρ c (Proc.devRef .tc main_v133)) (W9 m ρ c (Proc.devRef .tc main_v142)) = _
  rw [at9_v133 m ρ c, at9_v142 m ρ c]

/-! ## After the last stretch: the result -/

/-- The program's result buffer, at the end of the fold, is the reference's result stage of the launch arguments. -/
theorem at11_v144 (c : Dev nD) : W11 m ρ c (Proc.devRef .tc main_v144) = (Cert.ReferenceIdeal.Read.val_main_v172 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  show StableHlo.after hostOps5 (W10 m ρ c) (Proc.devRef .tc main_v144) = _
  after_results_simp
  simp only [at10_v143 m ρ c]
  exact (result_is_score _ _ _ _ _ _ _ _ _ _ _ _ _ _ _ _ _ _ _).symm

end Cert.LinkScore

end
-- ==== Proof.lean ====
/-
  Two layers of mean-aggregating graph convolution on a bipartite graph, followed by a dot-product edge scorer: the
  program with its linear stages and its scorer run on chip computes, over the extended reals, the same scores as the
  plain reference.

  Both programs build the node features, the neighbour counts and the neighbour means with the same host operations
  applied to the same arguments, so those stages are equal as they stand. They differ in three places only. A layer's
  linear stage runs on chip in blocks of 2000 nodes, with its operands rounded to a narrower format on the way into the
  matrix products and the bias added after both products, where the reference takes two whole matrix products and adds
  the bias between them: over the extended reals the rounding is the identity, a product is the plain sum over the
  contracted coordinate however it is tiled, and addition is associative and commutative, so the two are one function of
  the five operand arrays. The first layer's clamp at zero is the same maximum on both sides. The scorer applies the
  logistic function on chip where the reference writes 1 / (1 + exp (-s)): that expression is the logistic function's
  definition on the extended reals, at the infinities too. No step uses that the inputs are finite.

  The on-chip program's result is read off the fold of its buffer contents, stretch by stretch and region by region:
  every buffer that a later stage reads is shown equal to the reference's corresponding stage of the same arguments,
  ending with the result buffer. The three termination claims are the generated frames and the reference's generated
  run; the idealization rewrote no operation, so there is nothing to preserve.
-/
import proofs.«100248_j21938692948530_1_alg».proof.Defs
import proofs.«100248_j21938692948530_1_alg».proof.Proof.Gen.Kernel
import proofs.«100248_j21938692948530_1_alg».proof.Proof.Gen.Kernel.Frame
import proofs.«100248_j21938692948530_1_alg».proof.Proof.Gen.KernelIdeal
import proofs.«100248_j21938692948530_1_alg».proof.Proof.Gen.KernelIdeal.Frame
import proofs.«100248_j21938692948530_1_alg».proof.Proof.Gen.ReferenceIdeal
import proofs.«100248_j21938692948530_1_alg».proof.Proof.Gen.ReferenceIdeal.Run
import proofs.«100248_j21938692948530_1_alg».proof.Proof.Gen.ReferenceIdeal.Read
import proofs.«100248_j21938692948530_1_alg».proof.Proof.Gen.Pre_finite_inputs
import proofs.«100248_j21938692948530_1_alg».proof.Proof.EndRun
import proofs.«100248_j21938692948530_1_alg».proof.Proof.Stages
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference terminates with its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same scores: the on-chip program's result
    buffer ends at the reference's result stage of its own arguments, and the reference's at that stage of arguments
    that agree with them. -/
theorem algebraic : Cert.algebraic_KernelIdeal_ReferenceIdeal := by
  intro m ρ m' ρ' _ hagree
  refine ⟨fun c => Cert.KernelIdeal.Gen.W11 m ρ c (Proc.devRef .tc Cert.KernelIdeal.main_v144), Cert.LinkScore.run_end m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17⟩ := hagree c
  rw [Cert.ReferenceIdeal.Read.val_main_v172_eq, h0, h1, h2, h3, h4, h5, h6, h7, h8, h9, h10, h11, h12, h13, h14, h15, h16, h17]
  exact (Cert.LinkScore.at11_v144 m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
